-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S1000x2 : Shape := ⟨2, ![1000, 2]⟩
abbrev S1000x3 : Shape := ⟨2, ![1000, 3]⟩
abbrev S1000 : Shape := ⟨1, ![1000]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S1000x2 : S_.BroadcastsInDim S1000x2 (![] : Fin 0 → Fin S1000x2.rank)
  reducesTo_S1000x2_S_d0_1 : S1000x2.ReducesTo [0, 1] S_
  bcast_S_S1000x3 : S_.BroadcastsInDim S1000x3 (![] : Fin 0 → Fin S1000x3.rank)
  reducesTo_S1000x3_S_d0_1 : S1000x3.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_arg5 : FVec F S1000 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  main_v28

def fn {F : FTy → Type} [FloatOps F] (main_arg0 : FVec F S65536x2 .f32) (main_arg1 : FVec F S1000x2 .f32) (main_arg2 : FVec F S1000x3 .f32) (main_arg3 : FVec F S1000 .f32) (main_arg4 : FVec F S1000 .f32) (main_arg5 : FVec F S1000 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S1000x2 .f32 := Host.absf main_arg1
  let main_cst_0 : FVec F S_ .f32 := constant S_ .f32 0x7F800000#32
  let main_v5 : FVec F S1000x2 .f32 := broadcastInDim S1000x2 ![] bcast_S_S1000x2 main_cst_0
  let main_v6 : IVec S1000x2 1 := cmpf .olt main_v4 main_v5
  let main_c_1 : IVec S_ 1 := constantI S_ 1 1#1
  let main_v7 : IVec S_ 1 := (fun x v => Host.reduce IntOp.andi x v reducesTo_S1000x2_S_d0_1 h_S_) main_v6 main_c_1
  let main_v8 : IVec S_ 1 := andi main_v3 main_v7
  let main_v9 : FVec F S1000x3 .f32 := Host.absf main_arg2
  let main_cst_2 : FVec F S_ .f32 := constant S_ .f32 0x7F800000#32
  let main_v10 : FVec F S1000x3 .f32 := broadcastInDim S1000x3 ![] bcast_S_S1000x3 main_cst_2
  let main_v11 : IVec S1000x3 1 := cmpf .olt main_v9 main_v10
  let main_c_3 : IVec S_ 1 := constantI S_ 1 1#1
  let main_v12 : IVec S_ 1 := (fun x v => Host.reduce IntOp.andi x v reducesTo_S1000x3_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_v13 main_v16
-- ==== Kernel.lean ====
abbrev S65536x2 : Shape := ⟨2, ![65536, 2]⟩
abbrev S1000x2 : Shape := ⟨2, ![1000, 2]⟩
abbrev S1000x3 : Shape := ⟨2, ![1000, 3]⟩
abbrev S1000 : Shape := ⟨1, ![1000]⟩
abbrev S_ : Shape := ⟨0, ![]⟩
abbrev S1000x1 : Shape := ⟨2, ![1000, 1]⟩
abbrev S1024 : Shape := ⟨1, ![1024]⟩
abbrev S1024x8 : Shape := ⟨2, ![1024, 8]⟩
abbrev S1x1024 : Shape := ⟨2, ![1, 1024]⟩
abbrev S8x1024 : Shape := ⟨2, ![8, 1024]⟩
abbrev S65536x8 : Shape := ⟨2, ![65536, 8]⟩
abbrev S2048x2 : Shape := ⟨2, ![2048, 2]⟩
abbrev S2048x8 : Shape := ⟨2, ![2048, 8]⟩
abbrev S2048x1 : Shape := ⟨2, ![2048, 1]⟩
abbrev S2048x1024 : Shape := ⟨2, ![2048, 1024]⟩
abbrev S65536x3 : Shape := ⟨2, ![65536, 3]⟩

abbrev nBuf : Space → Nat
  | .hbm => 112
  | .vmem => 6
  | .smem => 0
  | _ => 0

abbrev bufTy : (tb : Table) → Fin (tcTables nBuf tb) → BufTy
  | .hbm, ⟨0, _⟩ => ⟨S65536x2, .f32⟩
  | .hbm, ⟨1, _⟩ => ⟨S1000x2, .f32⟩
  | .hbm, ⟨2, _⟩ => ⟨S1000x3, .f32⟩
  | .hbm, ⟨3, _⟩ => ⟨S1000, .f32⟩
  | .hbm, ⟨4, _⟩ => ⟨S1000, .f32⟩
  | .hbm, ⟨5, _⟩ => ⟨S1000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S_, .f32⟩
  | .hbm, ⟨12, _⟩ => ⟨S1000, .f32⟩
  | .hbm, ⟨13, _⟩ => ⟨S1000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S_, .f32⟩
  | .hbm, ⟨28, _⟩ => ⟨S1000, .f32⟩
  | .hbm, ⟨29, _⟩ => ⟨S1000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1000x3, .f32⟩
  | .hbm, ⟨34, _⟩ => ⟨S1000x3, .f32⟩
  | .hbm, ⟨35, _⟩ => ⟨S_, .f32⟩
  | .hbm, ⟨36, _⟩ => ⟨S1000x3, .f32⟩
  | .hbm, ⟨37, _⟩ => ⟨S1000x3, .f32⟩
  | .hbm, ⟨38, _⟩ => ⟨S1000, .f32⟩
  | .hbm, ⟨39, _⟩ => ⟨S1000, .f32⟩
  | .hbm, ⟨40, _⟩ => ⟨S1000, .f32⟩
  | .hbm, ⟨41, _⟩ => ⟨S1000, .f32⟩
  | .hbm, ⟨42, _⟩ => ⟨S1000, .f32⟩
  | .hbm, ⟨43, _⟩ => ⟨S1000, .f32⟩
  | .hbm, ⟨44, _⟩ => ⟨S1000, .f32⟩
  | .hbm, ⟨45, _⟩ => ⟨S1000, .f32⟩
  | .hbm, ⟨46, _⟩ => ⟨S1000, .f32⟩
  | .hbm, ⟨47, _⟩ => ⟨S1000, .f32⟩
  | .hbm, ⟨48, _⟩ => ⟨S1000, .f32⟩
  | .hbm, ⟨49, _⟩ => ⟨S1000x1, .f32⟩
  | .hbm, ⟨50, _⟩ => ⟨S1000, .f32⟩
  | .hbm, ⟨51, _⟩ => ⟨S_, .i32⟩
  | .hbm, ⟨52, _⟩ => ⟨S_, .f32⟩
  | .hbm, ⟨53, _⟩ => ⟨S1024, .f32⟩
  | .hbm, ⟨54, _⟩ => ⟨S1000x1, .f32⟩
  | .hbm, ⟨55, _⟩ => ⟨S1000, .f32⟩
  | .hbm, ⟨56, _⟩ => ⟨S_, .i32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S_, .f32⟩
  | .hbm, ⟨67, _⟩ => ⟨S1024, .f32⟩
  | .hbm, ⟨68, _⟩ => ⟨S_, .i32⟩
  | .hbm, ⟨69, _⟩ => ⟨S_, .f32⟩
  | .hbm, ⟨70, _⟩ => ⟨S1024x8, .f32⟩
  | .hbm, ⟨71, _⟩ => ⟨S1024x8, .bf16⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S1x1024, .f32⟩
  | .hbm, ⟨109, _⟩ => ⟨S8x1024, .f32⟩
  | .hbm, ⟨110, _⟩ => ⟨S65536x8, .f32⟩
  | .hbm, ⟨111, _⟩ => ⟨S65536x3, .f32⟩
  | .local _ .vmem, ⟨0, _⟩ => ⟨S2048x2, .f32⟩
  | .local _ .vmem, ⟨1, _⟩ => ⟨S2048x2, .f32⟩
  | .local _ .vmem, ⟨2, _⟩ => ⟨S8x1024, .f32⟩
  | .local _ .vmem, ⟨3, _⟩ => ⟨S1024x8, .bf16⟩
  | .local _ .vmem, ⟨4, _⟩ => ⟨S2048x8, .f32⟩
  | .local _ .vmem, ⟨5, _⟩ => ⟨S2048x8, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v2 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c : Ref sig .tc := ⟨.hbm, 51, rfl⟩
abbrev main_call4_v0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c_7 : Ref sig .tc := ⟨.hbm, 56, rfl⟩
abbrev main_call5_v0 : Ref sig .tc := ⟨.hbm, 57, rfl⟩
abbrev main_v20 : Ref sig .tc := ⟨.hbm, 58, rfl⟩
abbrev main_cst_8 : Ref sig .tc := ⟨.hbm, 59, rfl⟩
abbrev main_call6_v0 : Ref sig .tc := ⟨.hbm, 60, rfl⟩
abbrev main_v21 : Ref sig .tc := ⟨.hbm, 61, rfl⟩
abbrev main_cst_9 : Ref sig .tc := ⟨.hbm, 62, rfl⟩
abbrev main_call7_v0 : Ref sig .tc := ⟨.hbm, 63, rfl⟩
abbrev main_v22 : Ref sig .tc := ⟨.hbm, 64, rfl⟩
abbrev main_cst_10 : Ref sig .tc := ⟨.hbm, 65, rfl⟩
abbrev main_call8_v0 : Ref sig .tc := ⟨.hbm, 66, rfl⟩
abbrev main_v23 : Ref sig .tc := ⟨.hbm, 67, rfl⟩
abbrev main_c_11 : Ref sig .tc := ⟨.hbm, 68, rfl⟩
abbrev main_call9_v0 : Ref sig .tc := ⟨.hbm, 69, rfl⟩
abbrev main_v24 : Ref sig .tc := ⟨.hbm, 70, rfl⟩
abbrev main_v25 : Ref sig .tc := ⟨.hbm, 71, rfl⟩
abbrev main_cst_12 : Ref sig .tc := ⟨.hbm, 72, rfl⟩
abbrev main_v26 : Ref sig .tc := ⟨.hbm, 73, rfl⟩
abbrev main_v27 : Ref sig .tc := ⟨.hbm, 74, rfl⟩
abbrev main_cst_13 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_14 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_15 : Ref sig .tc := ⟨.hbm, 96, rfl⟩
abbrev main_v47 : Ref sig .tc := ⟨.hbm, 97, rfl⟩
abbrev main_v48 : Ref sig .tc := ⟨.hbm, 98, rfl⟩
abbrev main_cst_16 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1000 : S_.BroadcastsInDim S1000 (![] : Fin 0 → Fin S1000.rank)
  bcast_S_S1000x3 : S_.BroadcastsInDim S1000x3 (![] : Fin 0 → Fin S1000x3.rank)
  slices_S1000x2_S1000x1_0_0 : S1000x2.Slices ![0, 0] S1000x1
  shapeCasts_S1000x1_S1000 : S1000x1.ShapeCasts S1000
  pads_S1000_S1024_0240 : S1000.Pads (![0] : Fin 1 → Nat) ![24] ![0] S1024
  h_S_ : 0 < S_.numel
  slices_S1000x2_S1000x1_0_1 : S1000x2.Slices ![0, 1] S1000x1
  pads_S1000x3_S1024x8_0240_050 : S1000x3.Pads (![0, 0] : Fin 2 → Nat) ![24, 5] ![0, 0] S1024x8
  bitsLt_bf16_f32 : FTy.bits .bf16 < FTy.bits .f32
  bcast_S_S1024 : S_.BroadcastsInDim S1024 (![] : Fin 0 → Fin S1024.rank)
  bcast_S1024_S1x1024_1 : S1024.BroadcastsInDim S1x1024 (![1] : Fin 1 → Fin S1x1024.rank)
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  slices_S2048x2_o0_1_S2048x1 : S2048x2.Slices ![0, 1] S2048x1
  concatenates_S2048x1_S2048x1_S2048x1_S2048x1_S2048x1_S2048x1_S2048x1_S2048x1_S2048x8_d1 : Shape.Concatenates [S2048x1, S2048x1, S2048x1, S2048x1, S2048x1, S2048x1, S2048x1, S2048x1] S2048x8 1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S2048x8_S2048x8_0_0 : ∀ a, (![0, 0] : Fin 2 → Nat) a + S2048x8.size a ≤ S2048x8.size a
  h_S2048x8 : 0 < S2048x8.numel
  slices_S65536x8_S65536x3_0_0 : S65536x8.Slices ![0, 0] S65536x3
  dot_S2048x8_S8x1024_S2048x1024_1_0_0_1_n_n_wf : DotDims.WF S2048x8 S8x1024 S2048x1024 [1] [0] [0] [1] [] []
  dot_S2048x1024_S1024x8_S2048x8_1_0_0_1_n_n_wf : DotDims.WF S2048x1024 S1024x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S65536x2.size a
  hwx0_0 : ∀ i : grid0.Coords, EltTy.bits .f32 = 32 ∨ (Rect.block (s := S65536x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S1024x8.size a
  hwx0_2 : ∀ i : grid0.Coords, EltTy.bits .bf16 = 32 ∨ (Rect.block (s := S1024x8) S1024x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x8.size a ≤ S65536x8.size a
  hwx0_3 : ∀ i : grid0.Coords, EltTy.bits .f32 = 32 ∨ (Rect.block (s := S65536x8) S2048x8.size (cc0_transform_3 i) (hinb0_3 i)).WholeWords (EltTy.packing .f32)

variable [Facts₀]

def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf
def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S2048x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2 : Shape := ⟨2, ![65536, 2]⟩
abbrev S1000x2 : Shape := ⟨2, ![1000, 2]⟩
abbrev S1000x3 : Shape := ⟨2, ![1000, 3]⟩
abbrev S1000 : Shape := ⟨1, ![1000]⟩
abbrev S_ : Shape := ⟨0, ![]⟩
abbrev S65536x1x2 : Shape := ⟨3, ![65536, 1, 2]⟩
abbrev S1x1000x2 : Shape := ⟨3, ![1, 1000, 2]⟩
abbrev S65536x1000x2 : Shape := ⟨3, ![65536, 1000, 2]⟩
abbrev S65536x1000x1 : Shape := ⟨3, ![65536, 1000, 1]⟩
abbrev S65536x1000 : Shape := ⟨2, ![65536, 1000]⟩
abbrev S1x1000 : Shape := ⟨2, ![1, 1000]⟩
abbrev S65536x3 : Shape := ⟨2, ![65536, 3]⟩

abbrev nBuf : Space → Nat
  | .hbm => 84
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S1000x2, .f32⟩
  | .hbm, ⟨2, _⟩ => ⟨S1000x3, .f32⟩
  | .hbm, ⟨3, _⟩ => ⟨S1000, .f32⟩
  | .hbm, ⟨4, _⟩ => ⟨S1000, .f32⟩
  | .hbm, ⟨5, _⟩ => ⟨S1000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S_, .f32⟩
  | .hbm, ⟨12, _⟩ => ⟨S1000, .f32⟩
  | .hbm, ⟨13, _⟩ => ⟨S1000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S_, .f32⟩
  | .hbm, ⟨28, _⟩ => ⟨S1000, .f32⟩
  | .hbm, ⟨29, _⟩ => ⟨S1000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1000x3, .f32⟩
  | .hbm, ⟨34, _⟩ => ⟨S1000x3, .f32⟩
  | .hbm, ⟨35, _⟩ => ⟨S_, .f32⟩
  | .hbm, ⟨36, _⟩ => ⟨S1000x3, .f32⟩
  | .hbm, ⟨37, _⟩ => ⟨S1000x3, .f32⟩
  | .hbm, ⟨38, _⟩ => ⟨S65536x1x2, .f32⟩
  | .hbm, ⟨39, _⟩ => ⟨S1x1000x2, .f32⟩
  | .hbm, ⟨40, _⟩ => ⟨S65536x1000x2, .f32⟩
  | .hbm, ⟨41, _⟩ => ⟨S65536x1000x2, .f32⟩
  | .hbm, ⟨42, _⟩ => ⟨S65536x1000x2, .f32⟩
  | .hbm, ⟨43, _⟩ => ⟨S65536x1000x1, .f32⟩
  | .hbm, ⟨44, _⟩ => ⟨S65536x1000, .f32⟩
  | .hbm, ⟨45, _⟩ => ⟨S65536x1000x1, .f32⟩
  | .hbm, ⟨46, _⟩ => ⟨S65536x1000, .f32⟩
  | .hbm, ⟨47, _⟩ => ⟨S1000, .f32⟩
  | .hbm, ⟨48, _⟩ => ⟨S1000, .f32⟩
  | .hbm, ⟨49, _⟩ => ⟨S1000, .f32⟩
  | .hbm, ⟨50, _⟩ => ⟨S1000, .f32⟩
  | .hbm, ⟨51, _⟩ => ⟨S1000, .f32⟩
  | .hbm, ⟨52, _⟩ => ⟨S1000, .f32⟩
  | .hbm, ⟨53, _⟩ => ⟨S1000, .f32⟩
  | .hbm, ⟨54, _⟩ => ⟨S1000, .f32⟩
  | .hbm, ⟨55, _⟩ => ⟨S1000, .f32⟩
  | .hbm, ⟨56, _⟩ => ⟨S1000, .f32⟩
  | .hbm, ⟨57, _⟩ => ⟨S1000, .f32⟩
  | .hbm, ⟨58, _⟩ => ⟨S1x1000, .f32⟩
  | .hbm, ⟨59, _⟩ => ⟨S65536x1000, .f32⟩
  | .hbm, ⟨60, _⟩ => ⟨S65536x1000, .f32⟩
  | .hbm, ⟨61, _⟩ => ⟨S65536x1000, .f32⟩
  | .hbm, ⟨62, _⟩ => ⟨S_, .f32⟩
  | .hbm, ⟨63, _⟩ => ⟨S1000, .f32⟩
  | .hbm, ⟨64, _⟩ => ⟨S1000, .f32⟩
  | .hbm, ⟨65, _⟩ => ⟨S1x1000, .f32⟩
  | .hbm, ⟨66, _⟩ => ⟨S65536x1000, .f32⟩
  | .hbm, ⟨67, _⟩ => ⟨S65536x1000, .f32⟩
  | .hbm, ⟨68, _⟩ => ⟨S65536x1000, .f32⟩
  | .hbm, ⟨69, _⟩ => ⟨S65536x1000, .f32⟩
  | .hbm, ⟨70, _⟩ => ⟨S1x1000, .f32⟩
  | .hbm, ⟨71, _⟩ => ⟨S65536x1000, .f32⟩
  | .hbm, ⟨72, _⟩ => ⟨S65536x1000, .f32⟩
  | .hbm, ⟨73, _⟩ => ⟨S65536x1000, .f32⟩
  | .hbm, ⟨74, _⟩ => ⟨S65536x1000, .f32⟩
  | .hbm, ⟨75, _⟩ => ⟨S_, .f32⟩
  | .hbm, ⟨76, _⟩ => ⟨S65536x1000, .f32⟩
  | .hbm, ⟨77, _⟩ => ⟨S65536x1000, .f32⟩
  | .hbm, ⟨78, _⟩ => ⟨S65536x1000, .f32⟩
  | .hbm, ⟨79, _⟩ => ⟨S65536x3, .f32⟩
  | .hbm, ⟨80, _⟩ => ⟨S_, .f32⟩
  | .hbm, ⟨81, _⟩ => ⟨S65536x3, .f32⟩
  | .hbm, ⟨82, _⟩ => ⟨S65536x3, .f32⟩
  | .hbm, ⟨83, _⟩ => ⟨S65536x3, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v2 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S_S1000x3 : S_.BroadcastsInDim S1000x3 (![] : Fin 0 → Fin S1000x3.rank)
  bcast_S65536x2_S65536x1x2_0_2 : S65536x2.BroadcastsInDim S65536x1x2 (![0, 2] : Fin 2 → Fin S65536x1x2.rank)
  bcast_S1000x2_S1x1000x2_1_2 : S1000x2.BroadcastsInDim S1x1000x2 (![1, 2] : Fin 2 → Fin S1x1000x2.rank)
  bcast_S65536x1x2_S65536x1000x2_0_1_2 : S65536x1x2.BroadcastsInDim S65536x1000x2 (![0, 1, 2] : Fin 3 → Fin S65536x1000x2.rank)
  bcast_S1x1000x2_S65536x1000x2_0_1_2 : S1x1000x2.BroadcastsInDim S65536x1000x2 (![0, 1, 2] : Fin 3 → Fin S65536x1000x2.rank)
  slices_S65536x1000x2_S65536x1000x1_0_0_0 : S65536x1000x2.Slices ![0, 0, 0] S65536x1000x1
  shapeCasts_S65536x1000x1_S65536x1000 : S65536x1000x1.ShapeCasts S65536x1000
  slices_S65536x1000x2_S65536x1000x1_0_0_1 : S65536x1000x2.Slices ![0, 0, 1] S65536x1000x1
  bcast_S1000_S1x1000_1 : S1000.BroadcastsInDim S1x1000 (![1] : Fin 1 → Fin S1x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  bcast_S_S65536x3 : S_.BroadcastsInDim S65536x3 (![] : Fin 0 → Fin S65536x3.rank)
  dot_S65536x1000_S1000x3_S65536x3_1_0_0_1_n_n_wf : DotDims.WF S65536x1000 S1000x3 S65536x3 [1] [0] [0] [1] [] []

variable [Facts₀]

def dot_S65536x1000_S1000x3_S65536x3_1_0_0_1_n_n : DotDims S65536x1000 S1000x3 S65536x3 where
  lhsContracting := [1]
  rhsContracting := [0]
  lhsNonContracting := [0]
  rhsNonContracting := [1]
  lhsBatch := []
  rhsBatch := []
  wf := dot_S65536x1000_S1000x3_S65536x3_1_0_0_1_n_n_wf

class Facts : Prop extends Facts₀ where

variable [Facts]
-- ==== Proof.FrameK.lean ====
/-
  The run of the program around its one kernel launch, at any reading of the floats.

  The program is host operations (the clips, the inverse covariances, the padded coefficient table and colour table),
  one launch over 32 grid points, and one host operation after it (the slice of the first three channels).  At grid
  point t the kernel reads block t of the positions (2048 pixels), the whole coefficient table and the whole colour
  table, and writes block t of the output, which it covers with one store.  So: every execution terminates without
  a fault, each of the six argument arrays ends as it started (no host operation writes one, and the only window over
  an argument array is an input), the output array ends, block by block, at the body's value of the three input
  blocks, and the result is what the slice makes of that array.
-/
import proofs.«103306_j71468255805590_2_alg».proof.Proof.Gen.Kernel.Launch
import proofs.«103306_j71468255805590_2_alg».proof.Proof.Gen.Kernel.Skeleton
import proofs.«103306_j71468255805590_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What core c's buffers hold when the launch is reached: the memory after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The operation after the launch touches only arrays of the launch and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the launch's four arrays (it writes the result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at grid point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where the window is
    not fetched its block index has not moved, so the block of the previous point is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the window is
    not fetched its block index has not moved, so the block of the previous point is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the window is
    not fetched its block index has not moved, so the block of the previous point is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What a run leaves: the result and the six arguments -/

/-- From a run whose final state has every array of the launch at what the proof data computes and every other buffer as
    the operation after the launch leaves it: the result buffer is that operation's value, and each argument is unchanged
    (the positions are an input window's array, the other five are staged by no window). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v60) = Pipeline.afterTail₀ cfgs dats 0 (V0 m) [hostOps1] c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v60 (Pipeline.mem_restRefs_of main_v60 (by decide) (by decide)),
      ((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's accesses: each window's buffer whole -/

abbrev r0_0 : Rect S2048x2 := Rect.unit (s := S2048x2) ![0, 0] S2048x2.size inb_S2048x2_S2048x2_0_0
abbrev r0_1 : Rect S8x1024 := Rect.unit (s := S8x1024) ![0, 0] S8x1024.size inb_S8x1024_S8x1024_0_0
abbrev r0_2 : Rect S1024x8 := Rect.unit (s := S1024x8) ![0, 0] S1024x8.size inb_S1024x8_S1024x8_0_0
abbrev r0_3 : Rect S2048x8 := Rect.unit (s := S2048x8) ![0, 0] S2048x8.size inb_S2048x8_S2048x8_0_0

/-- The output window's buffer after the body, from the three input blocks: its one store, of the body's value. -/
def out0_3 (x0 : Vec F S2048x2 .f32) (x1 : Vec F S8x1024 .f32) (x2 : Vec F S1024x8 .bf16) : Vec F S2048x8 .f32 :=
  View.canon [⟨r0_3, k0_pay1 (View.ld x0 r0_0) (View.ld x1 r0_1) (View.ld x2 r0_2)⟩]

/-- That store covers the buffer. -/
theorem cover0_3 (p0 : Vec F S2048x8 .f32) (y : S2048x8.Idx) :
    ∃ pc ∈ ([⟨r0_3, p0⟩] : List (View.Piece (Elt F) S2048x8 .f32)), y ∈ pc.1.set :=
  View.cover_of_tiled [⟨r0_3, p0⟩] S2048x8.size (by rfl) y

/-! ## The body's triple -/

set_option maxHeartbeats 1000000 in
/-- The body on whole buffers, the inputs' at contents x0, x1, x2 and the output's at anything, returns with the inputs'
    as they were and the output's at the body's value of them. -/
theorem sound_kernel (c : Dev nD) (E : Set ℕ) (i : grid0.Coords) (arg1 : Memref sig .tc .vmem S2048x2 .f32) (harg1 : arg1.IsWhole) (arg2 : Memref sig .tc .vmem S8x1024 .f32) (harg2 : arg2.IsWhole) (arg3 : Memref sig .tc .vmem S1024x8 .bf16) (harg3 : arg3.IsWhole) (arg4 : Memref sig .tc .vmem S2048x8 .f32) (harg4 : arg4.IsWhole)
    (x0 : Vec F S2048x2 .f32) (x1 : Vec F S8x1024 .f32) (x2 : Vec F S1024x8 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gs_kernel i arg1 harg1 arg2 harg2 arg3 harg3 arg4 harg4) K := by
  simp only [cc0__gs_kernel_eq_skeleton]; unfold cc0__gs_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- On core c: the arrays as the launch finds them; after the body at point t each input's buffer at its block and the
    output's at the body's value of the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at any grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution terminates, and its final state has every array of the
    launch at what the proof data computes and every other buffer as the operation after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result buffer and the six arguments read off. -/
theorem run_post : θ_run defs (onTc (τ := τ) (main (F := F))) ⟨m, fun _ => 0, ρ⟩ (fun r => ∀ c : Dev nD,
      r.2.mem ((c.tc : Thread nD τ).loc main_v60) = Pipeline.afterTail₀ cfgs (dats m) 0 (V0 m) [hostOps1] c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  post_of m ρ (dats m) (A_eq m) (run_main m ρ)

/-- The frame: every execution terminates, nothing faults, the six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_post m ρ)

end Cert.Kernel.Frame

end
-- ==== Proof.FrameI.lean ====
/-
  The run of the program around its one kernel launch, at any reading of the floats.

  The program is host operations (the clips, the inverse covariances, the padded coefficient table and colour table),
  one launch over 32 grid points, and one host operation after it (the slice of the first three channels).  At grid
  point t the kernel reads block t of the positions (2048 pixels), the whole coefficient table and the whole colour
  table, and writes block t of the output, which it covers with one store.  So: every execution terminates without
  a fault, each of the six argument arrays ends as it started (no host operation writes one, and the only window over
  an argument array is an input), the output array ends, block by block, at the body's value of the three input
  blocks, and the result is what the slice makes of that array.
-/
import proofs.«103306_j71468255805590_2_alg».proof.Proof.Gen.KernelIdeal.Launch
import proofs.«103306_j71468255805590_2_alg».proof.Proof.Gen.KernelIdeal.Skeleton
import proofs.«103306_j71468255805590_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What core c's buffers hold when the launch is reached: the memory after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The operation after the launch touches only arrays of the launch and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the launch's four arrays (it writes the result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at grid point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where the window is
    not fetched its block index has not moved, so the block of the previous point is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the window is
    not fetched its block index has not moved, so the block of the previous point is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the window is
    not fetched its block index has not moved, so the block of the previous point is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What a run leaves: the result and the six arguments -/

/-- From a run whose final state has every array of the launch at what the proof data computes and every other buffer as
    the operation after the launch leaves it: the result buffer is that operation's value, and each argument is unchanged
    (the positions are an input window's array, the other five are staged by no window). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v60) = Pipeline.afterTail₀ cfgs dats 0 (V0 m) [hostOps1] c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v60 (Pipeline.mem_restRefs_of main_v60 (by decide) (by decide)),
      ((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's accesses: each window's buffer whole -/

abbrev r0_0 : Rect S2048x2 := Rect.unit (s := S2048x2) ![0, 0] S2048x2.size inb_S2048x2_S2048x2_0_0
abbrev r0_1 : Rect S8x1024 := Rect.unit (s := S8x1024) ![0, 0] S8x1024.size inb_S8x1024_S8x1024_0_0
abbrev r0_2 : Rect S1024x8 := Rect.unit (s := S1024x8) ![0, 0] S1024x8.size inb_S1024x8_S1024x8_0_0
abbrev r0_3 : Rect S2048x8 := Rect.unit (s := S2048x8) ![0, 0] S2048x8.size inb_S2048x8_S2048x8_0_0

/-- The output window's buffer after the body, from the three input blocks: its one store, of the body's value. -/
def out0_3 (x0 : Vec F S2048x2 .f32) (x1 : Vec F S8x1024 .f32) (x2 : Vec F S1024x8 .bf16) : Vec F S2048x8 .f32 :=
  View.canon [⟨r0_3, k0_pay1 (View.ld x0 r0_0) (View.ld x1 r0_1) (View.ld x2 r0_2)⟩]

/-- That store covers the buffer. -/
theorem cover0_3 (p0 : Vec F S2048x8 .f32) (y : S2048x8.Idx) :
    ∃ pc ∈ ([⟨r0_3, p0⟩] : List (View.Piece (Elt F) S2048x8 .f32)), y ∈ pc.1.set :=
  View.cover_of_tiled [⟨r0_3, p0⟩] S2048x8.size (by rfl) y

/-! ## The body's triple -/

set_option maxHeartbeats 1000000 in
/-- The body on whole buffers, the inputs' at contents x0, x1, x2 and the output's at anything, returns with the inputs'
    as they were and the output's at the body's value of them. -/
theorem sound_kernel (c : Dev nD) (E : Set ℕ) (i : grid0.Coords) (arg1 : Memref sig .tc .vmem S2048x2 .f32) (harg1 : arg1.IsWhole) (arg2 : Memref sig .tc .vmem S8x1024 .f32) (harg2 : arg2.IsWhole) (arg3 : Memref sig .tc .vmem S1024x8 .bf16) (harg3 : arg3.IsWhole) (arg4 : Memref sig .tc .vmem S2048x8 .f32) (harg4 : arg4.IsWhole)
    (x0 : Vec F S2048x2 .f32) (x1 : Vec F S8x1024 .f32) (x2 : Vec F S1024x8 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gs_kernel i arg1 harg1 arg2 harg2 arg3 harg3 arg4 harg4) K := by
  simp only [cc0__gs_kernel_eq_skeleton]; unfold cc0__gs_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- On core c: the arrays as the launch finds them; after the body at point t each input's buffer at its block and the
    output's at the body's value of the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at any grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution terminates, and its final state has every array of the
    launch at what the proof data computes and every other buffer as the operation after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result buffer and the six arguments read off. -/
theorem run_post : θ_run defs (onTc (τ := τ) (main (F := F))) ⟨m, fun _ => 0, ρ⟩ (fun r => ∀ c : Dev nD,
      r.2.mem ((c.tc : Thread nD τ).loc main_v60) = Pipeline.afterTail₀ cfgs (dats m) 0 (V0 m) [hostOps1] c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  post_of m ρ (dats m) (A_eq m) (run_main m ρ)

/-- The frame: every execution terminates, nothing faults, the six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_post m ρ)

end Cert.KernelIdeal.Frame

end
-- ==== Proof.Spec.lean ====
/-
  The mathematics both programs compute, on the extended reals.

  A picture of N = 65536 pixels is rendered from K = 1000 anisotropic Gaussians.  Gaussian k has a centre
  (mx, my), a colour, and a 2x2 covariance [[a^2, r a b], [r a b, b^2]] whose standard deviations a, b and
  correlation r are the inputs CLIPPED to [lo, 1] and [-0.9, 0.9].  Its inverse has the entries
  ia = b^2 / det, ib = -(r a b) / det, ic = a^2 / det with det = a^2 b^2 - (r a b)^2.  Pixel (px, py) sees
  Gaussian k with weight exp(-1/2 (ia dx^2 + 2 ib dx dy + ic dy^2)), dx = px - mx, dy = py - my; channel c of
  the pixel is tanh(1/2 * sum over k of weight * colour).

  One program evaluates the quadratic form as written ('expoQ').  The other expands it into a polynomial in
  (px, py): eight monomials 'feat' against eight coefficients 'coef' that depend on the Gaussian only, summed as a
  matrix product, over 1024 columns of which the last 24 carry colour zero.
-/
import Idealize.ShloMosaic.PureOps.Ideal
import Idealize.ShloMosaic.Lib.ValueIdx

noncomputable section

namespace Cert.Splat

open Idealize.ShloMosaic Idealize.ShloMosaic.ValueIdx

/-! ## The float literals, kept as words (the same word on both sides is never evaluated) -/

/-- the lower clip bound of a standard deviation, the f32 nearest 1e-4 -/
def wLo : EReal := Ideal.ofBits .f32 0x38D1B717#32
/-- 1.0 -/
def wOne : EReal := Ideal.ofBits .f32 0x3F800000#32
/-- the clip bounds of a correlation, the f32 nearest -0.9 and 0.9 -/
def wRhoLo : EReal := Ideal.ofBits .f32 0xBF666666#32
def wRhoHi : EReal := Ideal.ofBits .f32 0x3F666666#32
/-- 0.0, -0.5, 2.0, 0.5 -/
def wZero : EReal := Ideal.ofBits .f32 0x00000000#32
def wNegHalf : EReal := Ideal.ofBits .f32 0xBF000000#32
def wTwo : EReal := Ideal.ofBits .f32 0x40000000#32
def wHalf : EReal := Ideal.ofBits .f32 0x3F000000#32

/-- clipping to [lo, hi], in the order both programs apply it: first the lower bound, then the upper -/
def clip (lo hi x : EReal) : EReal := min hi (max lo x)

/-! ## One Gaussian's inverse covariance, from its clipped deviations a, b and correlation r -/

def det (a b r : EReal) : EReal := (a * a) * (b * b) - ((r * a) * b) * ((r * a) * b)
def ia (a b r : EReal) : EReal := Ideal.div (b * b) (det a b r)
def ib (a b r : EReal) : EReal := Ideal.div (-((r * a) * b)) (det a b r)
def ic (a b r : EReal) : EReal := Ideal.div (a * a) (det a b r)

/-! ## The exponent, two ways -/

/-- the quadratic form as written: -1/2 (ia dx dx + 2 ib dx dy + ic dy dy) -/
def expoQ (ia ib ic px py mx my : EReal) : EReal :=
  wNegHalf * ((((ia * (px - mx)) * (px - mx)) + (((wTwo * ib) * (px - mx)) * (py - my))) + ((ic * (py - my)) * (py - my)))

/-- the eight monomials of a pixel -/
def feat (px py : EReal) : Fin 8 → EReal := ![px * px, py * py, px * py, px, py, wOne, wZero, wZero]

/-- the eight coefficients of a Gaussian -/
def coef (ia ib ic mx my : EReal) : Fin 8 → EReal :=
  ![wNegHalf * ia, wNegHalf * ic, -ib, ia * mx + ib * my, ic * my + ib * mx,
    wNegHalf * ((((ia * mx) * mx) + (((wTwo * ib) * mx) * my)) + ((ic * my) * my)), wZero, wZero]

/-! ## The picture -/

abbrev SPos : Shape := ⟨2, ![65536, 2]⟩
abbrev SMu : Shape := ⟨2, ![1000, 2]⟩
abbrev SCol : Shape := ⟨2, ![1000, 3]⟩
abbrev SK : Shape := ⟨1, ![1000]⟩
abbrev SOut : Shape := ⟨2, ![65536, 3]⟩

/-- Gaussian k's three inverse-covariance entries from the raw inputs -/
def iaOf (sx sy rho : SK.Idx → EReal) (k : Fin 1000) : EReal :=
  ia (clip wLo wOne (sx (ix1 k))) (clip wLo wOne (sy (ix1 k))) (clip wRhoLo wRhoHi (rho (ix1 k)))
def ibOf (sx sy rho : SK.Idx → EReal) (k : Fin 1000) : EReal :=
  ib (clip wLo wOne (sx (ix1 k))) (clip wLo wOne (sy (ix1 k))) (clip wRhoLo wRhoHi (rho (ix1 k)))
def icOf (sx sy rho : SK.Idx → EReal) (k : Fin 1000) : EReal :=
  ic (clip wLo wOne (sx (ix1 k))) (clip wLo wOne (sy (ix1 k))) (clip wRhoLo wRhoHi (rho (ix1 k)))

/-- the weight of Gaussian k at pixel n, by the quadratic form as written -/
def weight (pos : SPos.Idx → EReal) (mu : SMu.Idx → EReal) (sx sy rho : SK.Idx → EReal) (n : Fin 65536) (k : Fin 1000) : EReal :=
  Ideal.exp (expoQ (iaOf sx sy rho k) (ibOf sx sy rho k) (icOf sx sy rho k)
    (pos (ix2 n 0)) (pos (ix2 n 1)) (mu (ix2 k 0)) (mu (ix2 k 1)))

/-- the rendered picture: channel c of pixel n -/
def picture (pos : SPos.Idx → EReal) (mu : SMu.Idx → EReal) (col : SCol.Idx → EReal) (sx sy rho : SK.Idx → EReal) :
    SOut.Idx → EReal := fun i =>
  Ideal.tanh (wHalf * ∑ k : Fin 1000, weight pos mu sx sy rho (i 0) k * clip wZero wOne (col (ix2 k (i 1))))

end Cert.Splat

end
-- ==== Proof.RefValue.lean ====
/-
  The reference program computes the picture of the specification, entry by entry.

  Read at a pixel n and a Gaussian k, the [65536, 1000, 2] tensor of differences holds pos(n, .) - mu(k, .); its two
  slices, reshaped to [65536, 1000], are dx and dy.  The per-Gaussian vectors (the clipped deviations and
  correlation, the determinant, the three entries of the inverse covariance) are broadcast along the pixel axis, so at
  (n, k) they are their values at k.  The exponent is then the quadratic form in the association order the
  specification writes it in, the weight its exponential, and entry (n, c) of the result the hyperbolic tangent of one
  half of the sum over k of weight times clipped colour.
-/
import proofs.«103306_j71468255805590_2_alg».proof.Proof.Gen.ReferenceIdeal.Read
import proofs.«103306_j71468255805590_2_alg».proof.Proof.Spec

noncomputable section

namespace Cert.Splat.RefValue

open Cert.ReferenceIdeal Cert.ReferenceIdeal.Read Idealize.ShloMosaic Idealize.ShloMosaic.ValueIdx Cert.Splat

variable (pos : (⟨S65536x2, .f32⟩ : BufTy).Contents (Elt Ideal)) (mu : (⟨S1000x2, .f32⟩ : BufTy).Contents (Elt Ideal))
  (col : (⟨S1000x3, .f32⟩ : BufTy).Contents (Elt Ideal)) (sx sy rho : (⟨S1000, .f32⟩ : BufTy).Contents (Elt Ideal))

/-! ## The clipped inputs -/

theorem sx_clip (k : Fin 1000) : val_main_v0 (F := Ideal) sx (ix1 k) = clip wLo wOne (sx (ix1 k)) := rfl
theorem sy_clip (k : Fin 1000) : val_main_v1 (F := Ideal) sy (ix1 k) = clip wLo wOne (sy (ix1 k)) := rfl
theorem rho_clip (k : Fin 1000) : val_main_v2 (F := Ideal) rho (ix1 k) = clip wRhoLo wRhoHi (rho (ix1 k)) := rfl
theorem col_clip (k : Fin 1000) (c : Fin 3) :
    val_main_v3 (F := Ideal) col (ix2 k c) = clip wZero wOne (col (ix2 k c)) := rfl

/-! ## The two coordinates of the difference pixel - centre -/

/-- dx at (n, k): coordinate 0 of pos(n) - mu(k) -/
theorem dx_eq (n : Fin 65536) (k : Fin 1000) :
    val_main_v10 (F := Ideal) pos mu (ix2 n k) = pos (ix2 n 0) - mu (ix2 k 0) := by
  rw [val_main_v10_apply, val_main_v9_apply, val_main_v8_apply, val_main_v6_apply, val_main_v7_apply,
    val_main_v4_apply, val_main_v5_apply]
  have hn := n.isLt
  have hk := k.isLt
  have e1 : idx_main_v4 (idx_main_v6 (idx_main_v9 (idx_main_v10 (ix2 n k)))) = ix2 n 0 :=
    funext fun a => Fin.ext (by
      match a with
      | ⟨0, _⟩ => show (n.val * 1000 + k.val) / 1000 = n.val; omega
      | ⟨1, _⟩ => rfl)
  have e2 : idx_main_v5 (idx_main_v7 (idx_main_v9 (idx_main_v10 (ix2 n k)))) = ix2 k 0 :=
    funext fun a => Fin.ext (by
      match a with
      | ⟨0, _⟩ => show (n.val * 1000 + k.val) / 1 % 1000 = k.val; omega
      | ⟨1, _⟩ => rfl)
  rw [e1, e2]; rfl

/-- dy at (n, k): coordinate 1 of pos(n) - mu(k) -/
theorem dy_eq (n : Fin 65536) (k : Fin 1000) :
    val_main_v12 (F := Ideal) pos mu (ix2 n k) = pos (ix2 n 1) - mu (ix2 k 1) := by
  rw [val_main_v12_apply, val_main_v11_apply, val_main_v8_apply, val_main_v6_apply, val_main_v7_apply,
    val_main_v4_apply, val_main_v5_apply]
  have hn := n.isLt
  have hk := k.isLt
  have e1 : idx_main_v4 (idx_main_v6 (idx_main_v11 (idx_main_v12 (ix2 n k)))) = ix2 n 1 :=
    funext fun a => Fin.ext (by
      match a with
      | ⟨0, _⟩ => show (n.val * 1000 + k.val) / 1000 = n.val; omega
      | ⟨1, _⟩ => rfl)
  have e2 : idx_main_v5 (idx_main_v7 (idx_main_v11 (idx_main_v12 (ix2 n k)))) = ix2 k 1 :=
    funext fun a => Fin.ext (by
      match a with
      | ⟨0, _⟩ => show (n.val * 1000 + k.val) / 1 % 1000 = k.val; omega
      | ⟨1, _⟩ => rfl)
  rw [e1, e2]; rfl

/-! ## The inverse covariance of Gaussian k, broadcast along the pixels -/

theorem ia_eq (n : Fin 65536) (k : Fin 1000) :
    val_main_v25 (F := Ideal) sx sy rho (ix2 n k) = iaOf sx sy rho k := by
  rw [val_main_v25_apply, val_main_v24_apply]
  have e : idx_main_v24 (idx_main_v25 (ix2 n k)) = ix1 k :=
    funext fun a => Fin.ext (by match a with | ⟨0, _⟩ => rfl)
  rw [e]; rfl

theorem twoib_eq (n : Fin 65536) (k : Fin 1000) :
    val_main_v31 (F := Ideal) sx sy rho (ix2 n k) = wTwo * ibOf sx sy rho k := by
  rw [val_main_v31_apply, val_main_v30_apply]
  have e : idx_main_v30 (idx_main_v31 (ix2 n k)) = ix1 k :=
    funext fun a => Fin.ext (by match a with | ⟨0, _⟩ => rfl)
  rw [e]; rfl

theorem ic_eq (n : Fin 65536) (k : Fin 1000) :
    val_main_v36 (F := Ideal) sx sy rho (ix2 n k) = icOf sx sy rho k := by
  rw [val_main_v36_apply, val_main_v35_apply]
  have e : idx_main_v35 (idx_main_v36 (ix2 n k)) = ix1 k :=
    funext fun a => Fin.ext (by match a with | ⟨0, _⟩ => rfl)
  rw [e]; rfl

/-! ## The exponent and the weight -/

theorem expo_eq (n : Fin 65536) (k : Fin 1000) :
    val_main_v41 (F := Ideal) pos mu sx sy rho (ix2 n k)
      = expoQ (iaOf sx sy rho k) (ibOf sx sy rho k) (icOf sx sy rho k)
          (pos (ix2 n 0)) (pos (ix2 n 1)) (mu (ix2 k 0)) (mu (ix2 k 1)) := by
  rw [val_main_v41_apply, val_main_v39_apply, val_main_v34_apply, val_main_v27_apply, val_main_v26_apply,
    val_main_v33_apply, val_main_v32_apply, val_main_v38_apply, val_main_v37_apply,
    ia_eq, twoib_eq, ic_eq, dx_eq, dy_eq]
  rfl

theorem weight_eq (n : Fin 65536) (k : Fin 1000) :
    val_main_v42 (F := Ideal) pos mu sx sy rho (ix2 n k) = weight pos mu sx sy rho n k := by
  rw [val_main_v42_apply, expo_eq]; rfl

/-! ## The picture -/

/-- The reference's result is the specification's picture. -/
theorem ref_eq_picture :
    val_main_v46 (F := Ideal) pos mu col sx sy rho = picture pos mu col sx sy rho := by
  funext i
  obtain ⟨n, c, rfl⟩ : ∃ (n : Fin 65536) (c : Fin 3), i = ix2 n c := ⟨i 0, i 1, eq_ix2 i⟩
  rw [val_main_v46_apply, val_main_v45_apply, val_main_v43_apply]
  have el : ∀ k : Fin 1000, lidx_main_v43 (ix2 n c) k = ix2 n k := fun k =>
    funext fun a => Fin.ext (by match a with | ⟨0, _⟩ => rfl | ⟨1, _⟩ => rfl)
  have er : ∀ k : Fin 1000, ridx_main_v43 (ix2 n c) k = ix2 k c := fun k =>
    funext fun a => Fin.ext (by match a with | ⟨0, _⟩ => rfl | ⟨1, _⟩ => rfl)
  simp only [el, er, weight_eq, col_clip]
  rfl

end Cert.Splat.RefValue

end
-- ==== Proof.KSpec.lean ====
/-
  The same picture as the second program computes it: through padded tables and two matrix products.

  The 1000 Gaussians are padded to 1024 columns.  A padded column carries the inverse covariance (1, 0, 1), the
  centre (0, 0) and the colour 0; the colour table is also padded from 3 to 8 channels with 0.  Column k of the
  coefficient table is 'coef' of that column's inverse covariance and centre; the exponent of pixel n against
  column k is the sum over the eight monomials of feat * coef (a matrix product into a zero accumulator is that
  plain sum); channel c of pixel n is tanh(1/2 * the sum over the 1024 columns of exp(exponent) * colour).  A padded
  column adds exp(..) * 0 = 0, and on a true column the eight-term sum is the quadratic form: 'Algebra'.
-/
import proofs.«103306_j71468255805590_2_alg».proof.Proof.Spec

noncomputable section

namespace Cert.Splat

open Idealize.ShloMosaic Idealize.ShloMosaic.ValueIdx

/-- the integer 0 converted to a float: the padding value of the centres and of the colours -/
def iZero : EReal := (((0#32 : BitVec 32).toInt : ℝ) : EReal)

/-- the padded inverse covariance of column k -/
def kIa (sx sy rho : SK.Idx → EReal) (k : Fin 1024) : EReal :=
  if h : k.val < 1000 then iaOf sx sy rho ⟨k.val, h⟩ else wOne
def kIb (sx sy rho : SK.Idx → EReal) (k : Fin 1024) : EReal :=
  if h : k.val < 1000 then ibOf sx sy rho ⟨k.val, h⟩ else wZero
def kIc (sx sy rho : SK.Idx → EReal) (k : Fin 1024) : EReal :=
  if h : k.val < 1000 then icOf sx sy rho ⟨k.val, h⟩ else wOne
/-- the padded centre of column k -/
def kMx (mu : SMu.Idx → EReal) (k : Fin 1024) : EReal :=
  if h : k.val < 1000 then mu (ix2 (⟨k.val, h⟩ : Fin 1000) (0 : Fin 2)) else iZero
def kMy (mu : SMu.Idx → EReal) (k : Fin 1024) : EReal :=
  if h : k.val < 1000 then mu (ix2 (⟨k.val, h⟩ : Fin 1000) (1 : Fin 2)) else iZero
/-- the padded, clipped colour table -/
def kCol (col : SCol.Idx → EReal) (k : Fin 1024) (c : Fin 8) : EReal :=
  if h : k.val < 1000 ∧ c.val < 3 then clip wZero wOne (col (ix2 (⟨k.val, h.1⟩ : Fin 1000) (⟨c.val, h.2⟩ : Fin 3))) else iZero

/-- entry (j, k) of the coefficient table -/
def kCoef (mu : SMu.Idx → EReal) (sx sy rho : SK.Idx → EReal) (j : Fin 8) (k : Fin 1024) : EReal :=
  coef (kIa sx sy rho k) (kIb sx sy rho k) (kIc sx sy rho k) (kMx mu k) (kMy mu k) j

/-- the exponent of pixel n against column k: one entry of a matrix product -/
def kExpo (pos : SPos.Idx → EReal) (mu : SMu.Idx → EReal) (sx sy rho : SK.Idx → EReal) (n : Fin 65536) (k : Fin 1024) : EReal :=
  ∑ j : Fin 8, feat (pos (ix2 n 0)) (pos (ix2 n 1)) j * kCoef mu sx sy rho j k

abbrev SOut8 : Shape := ⟨2, ![65536, 8]⟩

/-- the eight-channel picture the launch writes -/
def kPicture (pos : SPos.Idx → EReal) (mu : SMu.Idx → EReal) (col : SCol.Idx → EReal) (sx sy rho : SK.Idx → EReal) :
    SOut8.Idx → EReal := fun i =>
  Ideal.tanh (wHalf * ∑ k : Fin 1024, Ideal.exp (kExpo pos mu sx sy rho (i 0) k) * kCol col k (i 1))

end Cert.Splat

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.KPayload.lean ====
/-
  The body's value at one entry.

  From a block of 2048 positions x0, the coefficient table x1 (8 by 1024) and the colour table x2 (1024 by 8) the
  body forms, per pixel p, the row of eight monomials (px^2, py^2, px py, px, py, 1, 0, 0) by laying eight one-column
  pieces side by side; multiplies that 2048 by 8 matrix with the table (entry (p, k) is the sum over the eight
  monomials of monomial * coefficient: the exponent of pixel p against column k); exponentiates; multiplies with the
  colour table (entry (p, q) is the sum over the 1024 columns of weight * colour); halves and takes tanh.  Changing the
  float format of the weights is the identity on the extended reals.
-/
import proofs.«103306_j71468255805590_2_alg».proof.Proof.Gen.KernelIdeal.Skeleton
import proofs.«103306_j71468255805590_2_alg».proof.Proof.KSpec
import proofs.«103306_j71468255805590_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.Splat.KPayload

open Idealize.ShloMosaic Idealize.ShloMosaic.ValueIdx Cert.KernelIdeal Cert.KernelIdeal.Gen Cert.Splat

/-! ## The two columns of a block of positions -/

theorem col0_apply (x0 : Vec Ideal S2048x2 .f32) (p : Fin 2048) :
    (extractStridedSlice S2048x1 ![0, 0] x0 slices_S2048x2_o0_0_S2048x1) (ix2 p 0) = x0 (ix2 p 0) :=
  extractStridedSlice_apply _ x0 _ _ _ (fun a => by match a with | ⟨0, _⟩ => exact (Nat.zero_add _).symm | ⟨1, _⟩ => rfl)

theorem col1_apply (x0 : Vec Ideal S2048x2 .f32) (p : Fin 2048) :
    (extractStridedSlice S2048x1 ![0, 1] x0 slices_S2048x2_o0_1_S2048x1) (ix2 p 0) = x0 (ix2 p 1) :=
  extractStridedSlice_apply _ x0 _ _ _ (fun a => by match a with | ⟨0, _⟩ => exact (Nat.zero_add _).symm | ⟨1, _⟩ => rfl)

/-! ## Eight one-column pieces side by side: column j of the result is piece j -/

theorem concat8_apply (c0 c1 c2 c3 c4 c5 c6 c7 : S2048x1.Idx → EReal) (p : Fin 2048) (j : Fin 8) :
    concatenate S2048x8 1 [⟨S2048x1, c0⟩, ⟨S2048x1, c1⟩, ⟨S2048x1, c2⟩, ⟨S2048x1, c3⟩, ⟨S2048x1, c4⟩, ⟨S2048x1, c5⟩, ⟨S2048x1, c6⟩, ⟨S2048x1, c7⟩] concatenates_S2048x1_S2048x1_S2048x1_S2048x1_S2048x1_S2048x1_S2048x1_S2048x1_S2048x8_d1 (ix2 p j)
      = (![c0, c1, c2, c3, c4, c5, c6, c7] j) (ix2 p 0) := by
  have hi : ∀ (j : Fin 8) (b : Fin S2048x1.rank), b.cast (rfl : S2048x1.rank = S2048x8.rank) ≠ (1 : Fin S2048x8.rank) →
      ((ix2 p (0 : Fin 1) : S2048x1.Idx) b).val = ((ix2 p j : S2048x8.Idx) (b.cast rfl)).val := fun j b hb => by
    match b with
    | ⟨0, _⟩ => rfl
    | ⟨1, _⟩ => exact absurd rfl hb
  fin_cases j
  · exact concatenate_apply_piece (1 : Fin S2048x8.rank) _ _ (ix2 p _) 0 (by simp) S2048x1 c0 rfl rfl 0 rfl (ix2 p 0) (hi _) rfl
  · exact concatenate_apply_piece (1 : Fin S2048x8.rank) _ _ (ix2 p _) 1 (by simp) S2048x1 c1 rfl rfl 1 rfl (ix2 p 0) (hi _) rfl
  · exact concatenate_apply_piece (1 : Fin S2048x8.rank) _ _ (ix2 p _) 2 (by simp) S2048x1 c2 rfl rfl 2 rfl (ix2 p 0) (hi _) rfl
  · exact concatenate_apply_piece (1 : Fin S2048x8.rank) _ _ (ix2 p _) 3 (by simp) S2048x1 c3 rfl rfl 3 rfl (ix2 p 0) (hi _) rfl
  · exact concatenate_apply_piece (1 : Fin S2048x8.rank) _ _ (ix2 p _) 4 (by simp) S2048x1 c4 rfl rfl 4 rfl (ix2 p 0) (hi _) rfl
  · exact concatenate_apply_piece (1 : Fin S2048x8.rank) _ _ (ix2 p _) 5 (by simp) S2048x1 c5 rfl rfl 5 rfl (ix2 p 0) (hi _) rfl
  · exact concatenate_apply_piece (1 : Fin S2048x8.rank) _ _ (ix2 p _) 6 (by simp) S2048x1 c6 rfl rfl 6 rfl (ix2 p 0) (hi _) rfl
  · exact concatenate_apply_piece (1 : Fin S2048x8.rank) _ _ (ix2 p _) 7 (by simp) S2048x1 c7 rfl rfl 7 rfl (ix2 p 0) (hi _) rfl

/-- The row of monomials of pixel p. -/
theorem feat_row (x0 : Vec Ideal S2048x2 .f32) (p : Fin 2048) (j : Fin 8) :
    concatenate S2048x8 1 [⟨S2048x1, mulf (extractStridedSlice S2048x1 ![0, 0] x0 slices_S2048x2_o0_0_S2048x1) (extractStridedSlice S2048x1 ![0, 0] x0 slices_S2048x2_o0_0_S2048x1)⟩,
      ⟨S2048x1, mulf (extractStridedSlice S2048x1 ![0, 1] x0 slices_S2048x2_o0_1_S2048x1) (extractStridedSlice S2048x1 ![0, 1] x0 slices_S2048x2_o0_1_S2048x1)⟩,
      ⟨S2048x1, mulf (extractStridedSlice S2048x1 ![0, 0] x0 slices_S2048x2_o0_0_S2048x1) (extractStridedSlice S2048x1 ![0, 1] x0 slices_S2048x2_o0_1_S2048x1)⟩,
      ⟨S2048x1, extractStridedSlice S2048x1 ![0, 0] x0 slices_S2048x2_o0_0_S2048x1⟩,
      ⟨S2048x1, extractStridedSlice S2048x1 ![0, 1] x0 slices_S2048x2_o0_1_S2048x1⟩,
      ⟨S2048x1, broadcast S2048x1 (FloatOps.ofBits (F := Ideal) .f32 0x3F800000#32)⟩,
      ⟨S2048x1, broadcast S2048x1 (FloatOps.ofBits (F := Ideal) .f32 0x00000000#32)⟩,
      ⟨S2048x1, broadcast S2048x1 (FloatOps.ofBits (F := Ideal) .f32 0x00000000#32)⟩] concatenates_S2048x1_S2048x1_S2048x1_S2048x1_S2048x1_S2048x1_S2048x1_S2048x1_S2048x8_d1 (ix2 p j)
      = feat (x0 (ix2 p 0)) (x0 (ix2 p 1)) j := by
  refine (concat8_apply _ _ _ _ _ _ _ _ p j).trans ?_
  fin_cases j
  · show (extractStridedSlice S2048x1 ![0, 0] x0 slices_S2048x2_o0_0_S2048x1) (ix2 p 0) * (extractStridedSlice S2048x1 ![0, 0] x0 slices_S2048x2_o0_0_S2048x1) (ix2 p 0) = x0 (ix2 p 0) * x0 (ix2 p 0)
    rw [col0_apply]
  · show (extractStridedSlice S2048x1 ![0, 1] x0 slices_S2048x2_o0_1_S2048x1) (ix2 p 0) * (extractStridedSlice S2048x1 ![0, 1] x0 slices_S2048x2_o0_1_S2048x1) (ix2 p 0) = x0 (ix2 p 1) * x0 (ix2 p 1)
    rw [col1_apply]
  · show (extractStridedSlice S2048x1 ![0, 0] x0 slices_S2048x2_o0_0_S2048x1) (ix2 p 0) * (extractStridedSlice S2048x1 ![0, 1] x0 slices_S2048x2_o0_1_S2048x1) (ix2 p 0) = x0 (ix2 p 0) * x0 (ix2 p 1)
    rw [col0_apply, col1_apply]
  · exact col0_apply x0 p
  · exact col1_apply x0 p
  · rfl
  · rfl
  · rfl

/-! ## The two products' operand indices -/

theorem d1_l0 (i q) : ((dot_S2048x8_S8x1024_S2048x1024_1_0_0_1_n_n).lhsIdx i q 0).val = (i 0).val := by
  unfold DotDims.lhsIdx
  rw [dif_neg (show ¬(0 : Fin S2048x8.rank) ∈ (dot_S2048x8_S8x1024_S2048x1024_1_0_0_1_n_n).lhsBatch by decide), dif_pos (show (0 : Fin S2048x8.rank) ∈ (dot_S2048x8_S8x1024_S2048x1024_1_0_0_1_n_n).lhsNonContracting by decide)]
  rfl
theorem d1_l1 (i q) : ((dot_S2048x8_S8x1024_S2048x1024_1_0_0_1_n_n).lhsIdx i q 1).val = (q ⟨0, by decide⟩).val := (dot_S2048x8_S8x1024_S2048x1024_1_0_0_1_n_n).lhsIdx_val_of_single rfl i q
theorem d1_r0 (i q) : ((dot_S2048x8_S8x1024_S2048x1024_1_0_0_1_n_n).rhsIdx i q 0).val = (q ⟨0, by decide⟩).val := (dot_S2048x8_S8x1024_S2048x1024_1_0_0_1_n_n).rhsIdx_val_of_single rfl i q
theorem d1_r1 (i q) : ((dot_S2048x8_S8x1024_S2048x1024_1_0_0_1_n_n).rhsIdx i q 1).val = (i 1).val := by
  unfold DotDims.rhsIdx
  rw [dif_neg (show ¬(1 : Fin S8x1024.rank) ∈ (dot_S2048x8_S8x1024_S2048x1024_1_0_0_1_n_n).rhsBatch by decide), dif_pos (show (1 : Fin S8x1024.rank) ∈ (dot_S2048x8_S8x1024_S2048x1024_1_0_0_1_n_n).rhsNonContracting by decide)]
  rfl

theorem d2_l0 (i q) : ((dot_S2048x1024_S1024x8_S2048x8_1_0_0_1_n_n).lhsIdx i q 0).val = (i 0).val := by
  unfold DotDims.lhsIdx
  rw [dif_neg (show ¬(0 : Fin S2048x1024.rank) ∈ (dot_S2048x1024_S1024x8_S2048x8_1_0_0_1_n_n).lhsBatch by decide), dif_pos (show (0 : Fin S2048x1024.rank) ∈ (dot_S2048x1024_S1024x8_S2048x8_1_0_0_1_n_n).lhsNonContracting by decide)]
  rfl
theorem d2_l1 (i q) : ((dot_S2048x1024_S1024x8_S2048x8_1_0_0_1_n_n).lhsIdx i q 1).val = (q ⟨0, by decide⟩).val := (dot_S2048x1024_S1024x8_S2048x8_1_0_0_1_n_n).lhsIdx_val_of_single rfl i q
theorem d2_r0 (i q) : ((dot_S2048x1024_S1024x8_S2048x8_1_0_0_1_n_n).rhsIdx i q 0).val = (q ⟨0, by decide⟩).val := (dot_S2048x1024_S1024x8_S2048x8_1_0_0_1_n_n).rhsIdx_val_of_single rfl i q
theorem d2_r1 (i q) : ((dot_S2048x1024_S1024x8_S2048x8_1_0_0_1_n_n).rhsIdx i q 1).val = (i 1).val := by
  unfold DotDims.rhsIdx
  rw [dif_neg (show ¬(1 : Fin S1024x8.rank) ∈ (dot_S2048x1024_S1024x8_S2048x8_1_0_0_1_n_n).rhsBatch by decide), dif_pos (show (1 : Fin S1024x8.rank) ∈ (dot_S2048x1024_S1024x8_S2048x8_1_0_0_1_n_n).rhsNonContracting by decide)]
  rfl

/-! ## The exponent of pixel p against column k -/

theorem expo_apply (x0 : Vec Ideal S2048x2 .f32) (x1 : Vec Ideal S8x1024 .f32) (p : Fin 2048) (k : Fin 1024) :
    matmul (φ₁ := .f32) (φ₂ := .f32) dot_S2048x8_S8x1024_S2048x1024_1_0_0_1_n_n (some ContractPrecision.fp32)
        (concatenate S2048x8 1 [⟨S2048x1, mulf (extractStridedSlice S2048x1 ![0, 0] x0 slices_S2048x2_o0_0_S2048x1) (extractStridedSlice S2048x1 ![0, 0] x0 slices_S2048x2_o0_0_S2048x1)⟩,
      ⟨S2048x1, mulf (extractStridedSlice S2048x1 ![0, 1] x0 slices_S2048x2_o0_1_S2048x1) (extractStridedSlice S2048x1 ![0, 1] x0 slices_S2048x2_o0_1_S2048x1)⟩,
      ⟨S2048x1, mulf (extractStridedSlice S2048x1 ![0, 0] x0 slices_S2048x2_o0_0_S2048x1) (extractStridedSlice S2048x1 ![0, 1] x0 slices_S2048x2_o0_1_S2048x1)⟩,
      ⟨S2048x1, extractStridedSlice S2048x1 ![0, 0] x0 slices_S2048x2_o0_0_S2048x1⟩,
      ⟨S2048x1, extractStridedSlice S2048x1 ![0, 1] x0 slices_S2048x2_o0_1_S2048x1⟩,
      ⟨S2048x1, broadcast S2048x1 (FloatOps.ofBits (F := Ideal) .f32 0x3F800000#32)⟩,
      ⟨S2048x1, broadcast S2048x1 (FloatOps.ofBits (F := Ideal) .f32 0x00000000#32)⟩,
      ⟨S2048x1, broadcast S2048x1 (FloatOps.ofBits (F := Ideal) .f32 0x00000000#32)⟩] concatenates_S2048x1_S2048x1_S2048x1_S2048x1_S2048x1_S2048x1_S2048x1_S2048x1_S2048x8_d1)
        (shapeCast S8x1024 x1 shapeCasts_S8x1024_S8x1024) (constant (F := Ideal) S2048x1024 .f32 0x00000000#32) (ix2 p k)
      = ∑ j : Fin 8, feat (x0 (ix2 p 0)) (x0 (ix2 p 1)) j * x1 (ix2 j k) := by
  rw [show shapeCast S8x1024 x1 shapeCasts_S8x1024_S8x1024 = x1 from shapeCast_self _ _]
  refine (Cert.LibMatmul.matmul_zero_ix2 (φ₁ := .f32) (φ₂ := .f32) dot_S2048x8_S8x1024_S2048x1024_1_0_0_1_n_n rfl rfl d1_l0 d1_l1 d1_r0 d1_r1 (some ContractPrecision.fp32) _ x1 p k).trans ?_
  exact Finset.sum_congr rfl fun j _ => by rw [feat_row]

/-! ## The body's value at entry (p, q) -/

theorem pay_apply (x0 : Vec Ideal S2048x2 .f32) (x1 : Vec Ideal S8x1024 .f32) (x2 : Vec Ideal S1024x8 .bf16) (p : Fin 2048) (q : Fin 8) :
    k0_pay1 (F := Ideal) x0 x1 x2 (ix2 p q)
      = Ideal.tanh (wHalf * ∑ k : Fin 1024, Ideal.exp (∑ j : Fin 8, feat (x0 (ix2 p 0)) (x0 (ix2 p 1)) j * x1 (ix2 j k)) * x2 (ix2 k q)) := by
  unfold k0_pay1
  refine congrArg Ideal.tanh (congrArg (fun z => wHalf * z) ?_)
  rw [show shapeCast S1024x8 x2 shapeCasts_S1024x8_S1024x8 = x2 from shapeCast_self _ _]
  refine (Cert.LibMatmul.matmul_zero_ix2 (φ₁ := .bf16) (φ₂ := .bf16) dot_S2048x1024_S1024x8_S2048x8_1_0_0_1_n_n rfl rfl d2_l0 d2_l1 d2_r0 d2_r1 none _ x2 p q).trans ?_
  refine Finset.sum_congr rfl fun k _ => ?_
  refine congrArg (fun z => Ideal.exp z * x2 (ix2 k q)) ?_
  exact expo_apply x0 x1 p k

end Cert.Splat.KPayload

end
-- ==== Proof.KArray.lean ====
/-
  The output array of the launch as ONE function of the three arrays the launch reads.

  At grid point t the body sees block t of the positions (rows 2048 t .. 2048 t + 2047), the whole coefficient
  table and the whole colour table, and stores into block t of the output, at (p, q),
      tanh(1/2 * sum over the 1024 columns k of exp(sum over the eight monomials j of feat(pixel p) j * table (j, k))
                                                  * colour (k, q)).
  The pixel of row p of block t is row 2048 t + p of the positions, which is also the row of the output that entry
  lands on; the two tables are read whole.  So what point t writes back is block t of the function 'kOut' of the
  three arrays; the 32 blocks tile the 65536 rows (row r lies in the block of point r / 2048), hence after the
  launch the output array is 'kOut'; and the result is its first three channels.
-/
import proofs.«103306_j71468255805590_2_alg».proof.Proof.FrameI
import proofs.«103306_j71468255805590_2_alg».proof.Proof.KPayload
import proofs.«103306_j71468255805590_2_alg».proof.Proof.KSpec
import Idealize.ShloMosaic.Lib.Pipeline.Value
import Idealize.ShloMosaic.Lib.ValueIdx
import Idealize.ShloMosaic.Lib.Tactic

set_option maxRecDepth 16384

noncomputable section

namespace Cert.Splat.KArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame Cert.Splat

variable (m : (ℓ : Loc nD τ sig) → Buf (Elt Ideal) ℓ) (c : Dev nD)

/-- the zero offsets -/
theorem hz : (![0, 0] : Fin 2 → Nat) = fun _ => 0 := funext fun a => by fin_cases a <;> rfl

/-- the output array as a function of the positions, the coefficient table and the colour table -/
def kOut (pos : S65536x2.Idx → EReal) (tab : S8x1024.Idx → EReal) (colt : S1024x8.Idx → EReal) : S65536x8.Idx → EReal :=
  fun i => Ideal.tanh (wHalf * ∑ k : Fin 1024, Ideal.exp (∑ j : Fin 8, feat (pos (ix2 (i 0) 0)) (pos (ix2 (i 0) 1)) j * tab (ix2 j k)) * colt (ix2 k (i 1)))

/-- the output block after the body, at (p, q): its one store covers the block, and the stored value is the body's -/
theorem out_apply (x0 : Vec Ideal S2048x2 .f32) (x1 : Vec Ideal S8x1024 .f32) (x2 : Vec Ideal S1024x8 .bf16) (p : Fin 2048) (q : Fin 8) :
    out0_3 (F := Ideal) x0 x1 x2 (ix2 p q)
      = Ideal.tanh (wHalf * ∑ k : Fin 1024, Ideal.exp (∑ j : Fin 8, feat (x0 (ix2 p 0)) (x0 (ix2 p 1)) j * x1 (ix2 j k)) * x2 (ix2 k q)) := by
  unfold out0_3
  rw [View.canon_unit_zero hz]
  simp only [View.ld_unit_zero (S := S2048x2) hz, View.ld_unit_zero (S := S8x1024) hz, View.ld_unit_zero (S := S1024x8) hz]
  exact KPayload.pay_apply x0 x1 x2 p q

/-- the same at any index of the block -/
theorem out_apply' (x0 : Vec Ideal S2048x2 .f32) (x1 : Vec Ideal S8x1024 .f32) (x2 : Vec Ideal S1024x8 .bf16) (y : S2048x8.Idx) :
    out0_3 (F := Ideal) x0 x1 x2 y
      = Ideal.tanh (wHalf * ∑ k : Fin 1024, Ideal.exp (∑ j : Fin 8, feat (x0 (ix2 (y 0) 0)) (x0 (ix2 (y 0) 1)) j * x1 (ix2 j k)) * x2 (ix2 k (y 1))) := by
  obtain ⟨p, q, rfl⟩ : ∃ (p : Fin 2048) (q : Fin 8), y = ix2 p q := ⟨y 0, y 1, eq_ix2 y⟩
  exact out_apply x0 x1 x2 p q

/-- the four index maps over the 32 grid points: the positions' block moves with the output's along the rows, the two
    tables stay at block (0, 0), and the output's block index is (t, 0) -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- the block of positions at point t, read at y, is the array at row 2048 t + y 0 -/
theorem pos_blk (t : Fin cfg0.N) (y : S2048x2.Idx) (i : S65536x2.Idx)
    (h0 : (i 0).val = t.val * 2048 + (y 0).val) (h1 : (i 1).val = (y 1).val) :
    (iblk m c 0 t : Vec Ideal S2048x2 .f32) y = (V m c main_arg0 : S65536x2.Idx → EReal) i := by
  obtain ⟨e0, e1, e2, e3, e4, e5, e6, e7⟩ := idx_facts t
  unfold iblk
  rw [View.read_apply]
  show V m c main_arg0 _ = V m c main_arg0 _
  congr 1
  funext a; apply Fin.ext
  match a with
  | ⟨0, _⟩ => show win0_0.index t 0 * 2048 + 1 * (y 0).val = (i 0).val; omega
  | ⟨1, _⟩ => show win0_0.index t 1 * 2 + 1 * (y 1).val = (i 1).val; omega

/-- the coefficient table's one block is the table -/
theorem tab_blk (t : Fin cfg0.N) (y : S8x1024.Idx) :
    (iblk m c 1 t : Vec Ideal S8x1024 .f32) y = (V m c main_v58 : S8x1024.Idx → EReal) y := by
  obtain ⟨e0, e1, e2, e3, e4, e5, e6, e7⟩ := idx_facts t
  unfold iblk
  rw [View.read_apply]
  show V m c main_v58 _ = V m c main_v58 _
  congr 1
  funext a; apply Fin.ext
  match a with
  | ⟨0, _⟩ => show win0_1.index t 0 * 8 + 1 * (y 0).val = (y 0).val; omega
  | ⟨1, _⟩ => show win0_1.index t 1 * 1024 + 1 * (y 1).val = (y 1).val; omega

/-- the colour table's one block is the table -/
theorem col_blk (t : Fin cfg0.N) (y : S1024x8.Idx) :
    (iblk m c 2 t : Vec Ideal S1024x8 .bf16) y = (V m c main_v25 : S1024x8.Idx → EReal) y := by
  obtain ⟨e0, e1, e2, e3, e4, e5, e6, e7⟩ := idx_facts t
  unfold iblk
  rw [View.read_apply]
  show V m c main_v25 _ = V m c main_v25 _
  congr 1
  funext a; apply Fin.ext
  match a with
  | ⟨0, _⟩ => show win0_2.index t 0 * 1024 + 1 * (y 0).val = (y 0).val; omega
  | ⟨1, _⟩ => show win0_2.index t 1 * 8 + 1 * (y 1).val = (y 1).val; omega

/-- the body's value of three blocks that read the arrays at row i 0 and channel i 1 is the picture function at i -/
theorem kOut_of_blocks (pos : S65536x2.Idx → EReal) (tab : S8x1024.Idx → EReal) (colt : S1024x8.Idx → EReal)
    (x0 : S2048x2.Idx → EReal) (x1 : S8x1024.Idx → EReal) (x2 : S1024x8.Idx → EReal)
    (p : Fin 2048) (q : Fin 8) (i : S65536x8.Idx)
    (h0 : ∀ a : Fin 2, x0 (ix2 p a) = pos (ix2 (i 0) a))
    (h1 : ∀ (j : Fin 8) (k : Fin 1024), x1 (ix2 j k) = tab (ix2 j k))
    (h2 : ∀ k : Fin 1024, x2 (ix2 k q) = colt (ix2 k (i 1))) :
    Ideal.tanh (wHalf * ∑ k : Fin 1024, Ideal.exp (∑ j : Fin 8, feat (x0 (ix2 p 0)) (x0 (ix2 p 1)) j * x1 (ix2 j k)) * x2 (ix2 k q))
      = kOut pos tab colt i := by
  show _ = Ideal.tanh (wHalf * ∑ k : Fin 1024, Ideal.exp (∑ j : Fin 8, feat (pos (ix2 (i 0) 0)) (pos (ix2 (i 0) 1)) j * tab (ix2 j k)) * colt (ix2 k (i 1)))
  simp only [h0, h1, h2]

set_option maxHeartbeats 1000000 in
/-- the positions' block at point t, read at the row of the output's block index j, is the array at the row j lands on -/
theorem pos_blk_at (t : Fin cfg0.N) (j : ((cfg0.win 3).xblock (grid0.coords t)).Idx) (a : Fin 2) :
    (iblk m c 0 t : Vec Ideal S2048x2 .f32) (ix2 ((cfg0.win 3).xinj (grid0.coords t) j 0) a)
      = (V m c main_arg0 : S65536x2.Idx → EReal) (ix2 ((((cfg0.win 3).blk t).view.emb j) 0) a) := by
  obtain ⟨e0, e1, e2, e3, e4, e5, e6, e7⟩ := idx_facts t
  refine pos_blk m c t _ _ ?_ ?_
  · show win0_3.index t 0 * 2048 + 1 * (j 0).val = t.val * 2048 + (j 0).val
    omega
  · rfl

set_option maxHeartbeats 1000000 in
/-- the colour table's block read at the channel of the output's block index j is the table at the channel j lands on -/
theorem col_blk_at (t : Fin cfg0.N) (j : ((cfg0.win 3).xblock (grid0.coords t)).Idx) (k : Fin 1024) :
    (iblk m c 2 t : Vec Ideal S1024x8 .bf16) (ix2 k ((cfg0.win 3).xinj (grid0.coords t) j 1))
      = (V m c main_v25 : S1024x8.Idx → EReal) (ix2 k ((((cfg0.win 3).blk t).view.emb j) 1)) := by
  obtain ⟨e0, e1, e2, e3, e4, e5, e6, e7⟩ := idx_facts t
  refine (col_blk m c t _).trans ?_
  refine congrArg (V m c main_v25 : S1024x8.Idx → EReal) (funext fun a => Fin.ext ?_)
  match a with
  | ⟨0, _⟩ => rfl
  | ⟨1, _⟩ => show (j 1).val = win0_3.index t 1 * 8 + 1 * (j 1).val; omega

set_option maxHeartbeats 1000000 in
/-- What point t writes back is block t of the picture function of the arrays the launch finds. -/
theorem flushed_eq (t : Fin cfg0.N) :
    (dats m 0 c).flushed 3 t = ((cfg0.win 3).blk t).view.read (Elt Ideal) (kOut (V m c main_arg0) (V m c main_v58) (V m c main_v25)) := by
  show (cfg0.win 3).cut (grid0.coords t) ((dats m 0 c).after 3 t) = _
  rw [after0_3]
  funext j
  refine (out_apply' (iblk m c 0 t) (iblk m c 1 t) (iblk m c 2 t) ((cfg0.win 3).xinj (grid0.coords t) j)).trans ?_
  rw [View.read_apply]
  exact kOut_of_blocks (V m c main_arg0) (V m c main_v58) (V m c main_v25) (iblk m c 0 t) (iblk m c 1 t) (iblk m c 2 t)
    ((cfg0.win 3).xinj (grid0.coords t) j 0) ((cfg0.win 3).xinj (grid0.coords t) j 1)
    (((cfg0.win 3).blk t).view.emb j) (fun a => pos_blk_at m c t j a) (fun j' k => tab_blk m c t (ix2 j' k)) (fun k => col_blk_at m c t j k)

/-- An index of the array is in point t's block iff each coordinate is in the block's range on its axis. -/
theorem mem_blk (t : Fin cfg0.N) (i : S65536x8.Idx) :
    i ∈ ((cfg0.win 3).blk t).view.set ↔ ∀ a : Fin 2, win0_3.index t a * S2048x8.size a ≤ (i a).val ∧ (i a).val < win0_3.index t a * S2048x8.size a + S2048x8.size a := by
  show i ∈ ((View.whole main_v59).slice (win0_3.rect t)).set ↔ _
  rw [View.set_slice_whole, Rect.mem_set_unit]
  exact Iff.rfl

/-- Every index of the array is in the block of the point that owns its row: row r belongs to point r / 2048. -/
theorem cover (i : S65536x8.Idx) :
    ∃ t : Fin cfg0.N, (cfg0.win 3).flush t = true ∧ i ∈ ((cfg0.win 3).blk t).view.set := by
  have hi0 : (i 0).val < 65536 := (i 0).isLt
  have hi1 : (i 1).val < 8 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t 0 * 2048 ≤ (i 0).val ∧ (i 0).val < win0_3.index t 0 * 2048 + 2048; omega
  | ⟨1, _⟩ => show win0_3.index t 1 * 8 ≤ (i 1).val ∧ (i 1).val < win0_3.index t 1 * 8 + 8; omega

/-- The output array after the launch is the picture function of the arrays the launch finds. -/
theorem final : (dats m 0 c).arrAt 3 cfg0.N = kOut (V m c main_arg0) (V m c main_v58) (V m c main_v25) :=
  (dats m 0 c).arrAt_eq_of_cover 3 _ (fun t _ => flushed_eq m c t) cover

/-- The result: the slice of the first three channels of the output array. -/
theorem result_eq : Pipeline.afterTail₀ cfgs (dats m) 0 (V0 m) [hostOps1] c main_v60
    = fun i : S65536x3.Idx => kOut (V m c main_arg0) (V m c main_v58) (V m c main_v25)
        (ix2 (i 0) (⟨(i 1).val, by have h : (i 1).val < 3 := (i 1).isLt; omega⟩ : Fin 8)) := by
  unfold Pipeline.afterTail₀
  show StableHlo.after hostOps1 _ (Proc.devRef .tc main_v60) = _
  after_results
  have e : Pipeline.withArrays (cfgs 0).spec c (V0 m c) (fun w => (dats m 0 c).arrAt w (cfgs 0).N) (Proc.devRef .tc main_v59)
      = kOut (V m c main_arg0) (V m c main_v58) (V m c main_v25) :=
    (Pipeline.withArrays_arr spec0 launch0.win.arr_inj c _ _ 3).trans (final m c)
  rw [e]
  funext i
  exact extractStridedSlice_apply _ _ _ i _ (fun a => by
    match a with
    | ⟨0, _⟩ => exact (Nat.zero_add _).symm
    | ⟨1, _⟩ => exact (Nat.zero_add _).symm)

end Cert.Splat.KArray

end
-- ==== Proof.Tables.lean ====
/-
  The two tables the host operations build before the launch, read at an index.

  The colour table: the colours clipped to [0, 1], padded from [1000, 3] to [1024, 8] with the integer 0 converted to
  a float, and changed to the narrower format (no change of value on the extended reals).  Entry (k, c) is the clipped
  colour where k < 1000 and c < 3, and the padding value elsewhere.

  The coefficient table: eight rows of 1024 columns.  The per-Gaussian vectors (the inverse covariance, the centre)
  are padded from 1000 to 1024 entries, with 1, 0, 1 for the inverse covariance and the converted integer 0 for the
  centre; each row is one coefficient of every padded column, computed entry by entry, and the table is the rows
  laid one under the other.
-/
import proofs.«103306_j71468255805590_2_alg».proof.Proof.FrameI
import proofs.«103306_j71468255805590_2_alg».proof.Proof.KSpec
import Idealize.ShloMosaic.Lib.KernelVsHost
import Idealize.ShloMosaic.Lib.Pipeline.Value
import Idealize.ShloMosaic.Lib.StableHlo.Run

noncomputable section

namespace Cert.Splat.Tables

open Cert.KernelIdeal Cert.KernelIdeal.Gen Cert.KernelIdeal.Frame
open Idealize.ShloMosaic Idealize.ShloMosaic.TcCoe Idealize.SL.Sem Idealize.ShloMosaic.StableHlo Idealize.ShloMosaic.ValueIdx
open Cert.Splat

/-! ## Padding read at an index -/

/-- A [1000] vector padded at the end to [1024]: the vector below 1000, the padding value from 1000 on. -/
theorem pad1_apply (x : S1000.Idx → EReal) (v : S_.Idx → EReal) (h : S1000.Pads (![0] : Fin 1 → Nat) ![24] ![0] S1024)
    (hu : 0 < S_.numel) (k : Fin 1024) :
    pad S1024 ![0] ![24] ![0] x v h hu (ix1 k) = if hk : k.val < 1000 then x (ix1 (⟨k.val, hk⟩ : Fin 1000)) else v ix0 := by
  by_cases hk : k.val < 1000
  · rw [dif_pos hk]
    exact pad_apply_of_inside _ _ _ x v h hu _ (ix1 (⟨k.val, hk⟩ : Fin 1000)) (fun a => by
      have ha : a = 0 := Subsingleton.elim _ _
      subst ha
      show k.val = 0 + k.val * (0 + 1); omega)
  · rw [dif_neg hk]
    refine (pad_apply_of_not_inside _ _ _ x v h hu _ (0 : Fin 1) (fun hin => hk ?_)).trans (congrArg v (eq_ix0 _))
    have e : (k.val - 0) / (0 + 1) < 1000 := hin.2.2
    omega

/-- A [1000, 3] array padded at the ends to [1024, 8]. -/
theorem pad2_apply (x : S1000x3.Idx → EReal) (v : S_.Idx → EReal)
    (h : S1000x3.Pads (![0, 0] : Fin 2 → Nat) ![24, 5] ![0, 0] S1024x8) (hu : 0 < S_.numel) (k : Fin 1024) (c : Fin 8) :
    pad S1024x8 ![0, 0] ![24, 5] ![0, 0] x v h hu (ix2 k c)
      = if hk : k.val < 1000 ∧ c.val < 3 then x (ix2 (⟨k.val, hk.1⟩ : Fin 1000) (⟨c.val, hk.2⟩ : Fin 3)) else v ix0 := by
  by_cases hk : k.val < 1000 ∧ c.val < 3
  · rw [dif_pos hk]
    exact pad_apply_of_inside _ _ _ x v h hu _ (ix2 (⟨k.val, hk.1⟩ : Fin 1000) (⟨c.val, hk.2⟩ : Fin 3)) (fun a => by
      match a with
      | ⟨0, _⟩ => show k.val = 0 + k.val * (0 + 1); omega
      | ⟨1, _⟩ => show c.val = 0 + c.val * (0 + 1); omega)
  · rw [dif_neg hk]
    by_cases h0 : k.val < 1000
    · refine (pad_apply_of_not_inside _ _ _ x v h hu _ (1 : Fin 2) (fun hin => hk ⟨h0, ?_⟩)).trans (congrArg v (eq_ix0 _))
      have e : (c.val - 0) / (0 + 1) < 3 := hin.2.2
      omega
    · refine (pad_apply_of_not_inside _ _ _ x v h hu _ (0 : Fin 2) (fun hin => h0 ?_)).trans (congrArg v (eq_ix0 _))
      have e : (k.val - 0) / (0 + 1) < 1000 := hin.2.2
      omega

/-! ## The colour table -/

/-- the colour table as the host operations compose it -/
def colT (col : S1000x3.Idx → EReal) : S1024x8.Idx → EReal :=
  truncf (F := Ideal) .bf16 (pad S1024x8 ![0, 0] ![24, 5] ![0, 0]
      (minimumf (F := Ideal) (φ := .f32) (broadcastInDim S1000x3 ![] Gen.bcast_S_S1000x3 (constant (F := Ideal) S_ .f32 0x3F800000#32))
        (maximumf (F := Ideal) (φ := .f32) (broadcastInDim S1000x3 ![] Gen.bcast_S_S1000x3 (constant (F := Ideal) S_ .f32 0x00000000#32)) col))
      (sitofp (F := Ideal) .f32 (constantI S_ 32 0#32)) Gen.pads_S1000x3_S1024x8_0240_050 Gen.h_S_) Gen.bitsLt_bf16_f32

theorem colT_apply (col : S1000x3.Idx → EReal) (k : Fin 1024) (c : Fin 8) : colT col (ix2 k c) = kCol col k c := by
  unfold colT
  refine (pad2_apply _ _ Gen.pads_S1000x3_S1024x8_0240_050 Gen.h_S_ k c).trans ?_
  rfl

variable (m : (ℓ : Loc nD τ sig) → Buf (Elt Ideal) ℓ) (c : Dev nD)

theorem col_stage : (V m c main_v25 : S1024x8.Idx → EReal) = colT (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The colour table the launch reads. -/
theorem col_table :
    (V m c main_v25 : S1024x8.Idx → EReal) = fun i => kCol (m ((c : Thread nD τ).loc main_arg2)) (i 0) (i 1) := by
  rw [col_stage]
  funext i
  obtain ⟨k, c', rfl⟩ : ∃ (k : Fin 1024) (c' : Fin 8), i = ix2 k c' := ⟨i 0, i 1, eq_ix2 i⟩
  exact colT_apply _ k c'

/-! ## The padded per-Gaussian vectors -/

/-- a [1000] vector clipped between the two words -/
def clipV (lo hi : BitVec 32) (x : S1000.Idx → EReal) : S1000.Idx → EReal :=
  minimumf (F := Ideal) (φ := .f32) (broadcastInDim S1000 ![] Gen.bcast_S_S1000 (constant (F := Ideal) S_ .f32 hi))
    (maximumf (F := Ideal) (φ := .f32) (broadcastInDim S1000 ![] Gen.bcast_S_S1000 (constant (F := Ideal) S_ .f32 lo)) x)

/-- the determinant and the three entries of the inverse covariance, as vectors over the Gaussians -/
def detV (a b r : S1000.Idx → EReal) : S1000.Idx → EReal :=
  subf (F := Ideal) (φ := .f32) (mulf (F := Ideal) (φ := .f32) (mulf (F := Ideal) (φ := .f32) a a) (mulf (F := Ideal) (φ := .f32) b b))
    (mulf (F := Ideal) (φ := .f32) (mulf (F := Ideal) (φ := .f32) (mulf (F := Ideal) (φ := .f32) r a) b)
      (mulf (F := Ideal) (φ := .f32) (mulf (F := Ideal) (φ := .f32) r a) b))
def iaV (a b r : S1000.Idx → EReal) : S1000.Idx → EReal :=
  Host.divf (F := Ideal) (φ := .f32) (mulf (F := Ideal) (φ := .f32) b b) (detV a b r)
def ibV (a b r : S1000.Idx → EReal) : S1000.Idx → EReal :=
  Host.divf (F := Ideal) (φ := .f32) (Host.negf (F := Ideal) (φ := .f32) (mulf (F := Ideal) (φ := .f32) (mulf (F := Ideal) (φ := .f32) r a) b)) (detV a b r)
def icV (a b r : S1000.Idx → EReal) : S1000.Idx → EReal :=
  Host.divf (F := Ideal) (φ := .f32) (mulf (F := Ideal) (φ := .f32) a a) (detV a b r)

/-- padding to 1024 entries with a float word, and with the converted integer 0 -/
def padW (w : BitVec 32) (x : S1000.Idx → EReal) : S1024.Idx → EReal :=
  pad S1024 ![0] ![24] ![0] x (constant (F := Ideal) S_ .f32 w) Gen.pads_S1000_S1024_0240 Gen.h_S_
def padI (x : S1000.Idx → EReal) : S1024.Idx → EReal :=
  pad S1024 ![0] ![24] ![0] x (sitofp (F := Ideal) .f32 (constantI S_ 32 0#32)) Gen.pads_S1000_S1024_0240 Gen.h_S_

def iaP (sx sy rho : S1000.Idx → EReal) : S1024.Idx → EReal :=
  padW 0x3F800000#32 (iaV (clipV 0x38D1B717#32 0x3F800000#32 sx) (clipV 0x38D1B717#32 0x3F800000#32 sy) (clipV 0xBF666666#32 0x3F666666#32 rho))
def ibP (sx sy rho : S1000.Idx → EReal) : S1024.Idx → EReal :=
  padW 0x00000000#32 (ibV (clipV 0x38D1B717#32 0x3F800000#32 sx) (clipV 0x38D1B717#32 0x3F800000#32 sy) (clipV 0xBF666666#32 0x3F666666#32 rho))
def icP (sx sy rho : S1000.Idx → EReal) : S1024.Idx → EReal :=
  padW 0x3F800000#32 (icV (clipV 0x38D1B717#32 0x3F800000#32 sx) (clipV 0x38D1B717#32 0x3F800000#32 sy) (clipV 0xBF666666#32 0x3F666666#32 rho))
/-- the two columns of the centres, each cut out, flattened and padded -/
def mxP (mu : S1000x2.Idx → EReal) : S1024.Idx → EReal :=
  padI (shapeCast S1000 (extractStridedSlice S1000x1 ![0, 0] mu Gen.slices_S1000x2_S1000x1_0_0) Gen.shapeCasts_S1000x1_S1000)
def myP (mu : S1000x2.Idx → EReal) : S1024.Idx → EReal :=
  padI (shapeCast S1000 (extractStridedSlice S1000x1 ![0, 1] mu Gen.slices_S1000x2_S1000x1_0_1) Gen.shapeCasts_S1000x1_S1000)

theorem iaP_apply (sx sy rho : S1000.Idx → EReal) (k : Fin 1024) : iaP sx sy rho (ix1 k) = kIa sx sy rho k := by
  unfold iaP padW kIa
  rw [pad1_apply]
  by_cases hk : k.val < 1000
  · rw [dif_pos hk, dif_pos hk]; rfl
  · rw [dif_neg hk, dif_neg hk]; rfl
theorem ibP_apply (sx sy rho : S1000.Idx → EReal) (k : Fin 1024) : ibP sx sy rho (ix1 k) = kIb sx sy rho k := by
  unfold ibP padW kIb
  rw [pad1_apply]
  by_cases hk : k.val < 1000
  · rw [dif_pos hk, dif_pos hk]; rfl
  · rw [dif_neg hk, dif_neg hk]; rfl
theorem icP_apply (sx sy rho : S1000.Idx → EReal) (k : Fin 1024) : icP sx sy rho (ix1 k) = kIc sx sy rho k := by
  unfold icP padW kIc
  rw [pad1_apply]
  by_cases hk : k.val < 1000
  · rw [dif_pos hk, dif_pos hk]; rfl
  · rw [dif_neg hk, dif_neg hk]; rfl

/-- column e of the centres, cut out and flattened, at Gaussian q -/
theorem mu_col (mu : S1000x2.Idx → EReal) (e : Fin 2) (hs : S1000x2.Slices ![0, e.val] S1000x1) (q : Fin 1000) :
    shapeCast S1000 (extractStridedSlice S1000x1 ![0, e.val] mu hs) Gen.shapeCasts_S1000x1_S1000 (ix1 q) = mu (ix2 q e) := by
  refine (shapeCast_apply _ Gen.shapeCasts_S1000x1_S1000 (ix1 q) (ix2 q (0 : Fin 1)) ?_).trans
    (extractStridedSlice_apply _ mu hs (ix2 q (0 : Fin 1)) (ix2 q e) (fun a => by
      match a with
      | ⟨0, _⟩ => show q.val = 0 + q.val; omega
      | ⟨1, _⟩ => show e.val = e.val + 0; omega))
  rw [Shape.rowMajor_val_two, Shape.rowMajor_val_one]
  show q.val * 1 + 0 = q.val
  omega

theorem mxP_apply (mu : S1000x2.Idx → EReal) (k : Fin 1024) : mxP mu (ix1 k) = kMx mu k := by
  unfold mxP padI kMx
  rw [pad1_apply]
  by_cases hk : k.val < 1000
  · rw [dif_pos hk, dif_pos hk]; exact mu_col mu 0 _ _
  · rw [dif_neg hk, dif_neg hk]; rfl
theorem myP_apply (mu : S1000x2.Idx → EReal) (k : Fin 1024) : myP mu (ix1 k) = kMy mu k := by
  unfold myP padI kMy
  rw [pad1_apply]
  by_cases hk : k.val < 1000
  · rw [dif_pos hk, dif_pos hk]; exact mu_col mu 1 _ _
  · rw [dif_neg hk, dif_neg hk]; rfl

/-! ## The eight rows -/

/-- a float word at every one of the 1024 columns -/
def bc1 (w : BitVec 32) : S1024.Idx → EReal := broadcastInDim S1024 ![] Gen.bcast_S_S1024 (constant (F := Ideal) S_ .f32 w)
/-- a [1024] vector as a [1, 1024] row -/
def rowOf (x : S1024.Idx → EReal) : S1x1024.Idx → EReal := broadcastInDim S1x1024 ![1] Gen.bcast_S1024_S1x1024_1 x

/-- the coefficient table as the host operations compose it from the five padded vectors -/
def coefT (mx my ia ib ic : S1024.Idx → EReal) : S8x1024.Idx → EReal :=
  concatenate S8x1024 0
    [⟨S1x1024, rowOf (mulf (F := Ideal) (φ := .f32) (bc1 0xBF000000#32) ia)⟩,
     ⟨S1x1024, rowOf (mulf (F := Ideal) (φ := .f32) (bc1 0xBF000000#32) ic)⟩,
     ⟨S1x1024, rowOf (Host.negf (F := Ideal) (φ := .f32) ib)⟩,
     ⟨S1x1024, rowOf (addf (F := Ideal) (φ := .f32) (mulf (F := Ideal) (φ := .f32) ia mx) (mulf (F := Ideal) (φ := .f32) ib my))⟩,
     ⟨S1x1024, rowOf (addf (F := Ideal) (φ := .f32) (mulf (F := Ideal) (φ := .f32) ic my) (mulf (F := Ideal) (φ := .f32) ib mx))⟩,
     ⟨S1x1024, rowOf (mulf (F := Ideal) (φ := .f32) (bc1 0xBF000000#32)
        (addf (F := Ideal) (φ := .f32)
          (addf (F := Ideal) (φ := .f32) (mulf (F := Ideal) (φ := .f32) (mulf (F := Ideal) (φ := .f32) ia mx) mx)
            (mulf (F := Ideal) (φ := .f32) (mulf (F := Ideal) (φ := .f32) (mulf (F := Ideal) (φ := .f32) (bc1 0x40000000#32) ib) mx) my))
          (mulf (F := Ideal) (φ := .f32) (mulf (F := Ideal) (φ := .f32) ic my) my)))⟩,
     ⟨S1x1024, rowOf (bc1 0x00000000#32)⟩,
     ⟨S1x1024, rowOf (bc1 0x00000000#32)⟩]
    Gen.concatenates_S1x1024_S1x1024_S1x1024_S1x1024_S1x1024_S1x1024_S1x1024_S1x1024_S8x1024_d0

/-! Eight [1, 1024] rows laid one under the other: row J of the result is piece J. -/
theorem concat8_row0 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 0 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨0, hJ⟩ : Fin 8) k) = r0 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨0, hJ⟩ : Fin 8) k) 0 ?_ S1x1024 r0 rfl rfl 0 ?_ (ix2 (0 : Fin 1) k) ?_ ?_
  · exact hJ
  · rfl
  · intro b hb
    match b with
    | ⟨0, _⟩ => exact absurd rfl hb
    | ⟨1, _⟩ => rfl
  · rfl
theorem concat8_row1 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 1 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨1, hJ⟩ : Fin 8) k) = r1 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨1, hJ⟩ : Fin 8) k) 1 ?_ S1x1024 r1 rfl rfl 1 ?_ (ix2 (0 : Fin 1) k) ?_ ?_
  · exact hJ
  · rfl
  · intro b hb
    match b with
    | ⟨0, _⟩ => exact absurd rfl hb
    | ⟨1, _⟩ => rfl
  · rfl
theorem concat8_row2 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 2 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨2, hJ⟩ : Fin 8) k) = r2 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨2, hJ⟩ : Fin 8) k) 2 ?_ S1x1024 r2 rfl rfl 2 ?_ (ix2 (0 : Fin 1) k) ?_ ?_
  · exact hJ
  · rfl
  · intro b hb
    match b with
    | ⟨0, _⟩ => exact absurd rfl hb
    | ⟨1, _⟩ => rfl
  · rfl
theorem concat8_row3 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 3 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨3, hJ⟩ : Fin 8) k) = r3 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨3, hJ⟩ : Fin 8) k) 3 ?_ S1x1024 r3 rfl rfl 3 ?_ (ix2 (0 : Fin 1) k) ?_ ?_
  · exact hJ
  · rfl
  · intro b hb
    match b with
    | ⟨0, _⟩ => exact absurd rfl hb
    | ⟨1, _⟩ => rfl
  · rfl
theorem concat8_row4 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 4 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨4, hJ⟩ : Fin 8) k) = r4 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨4, hJ⟩ : Fin 8) k) 4 ?_ S1x1024 r4 rfl rfl 4 ?_ (ix2 (0 : Fin 1) k) ?_ ?_
  · exact hJ
  · rfl
  · intro b hb
    match b with
    | ⟨0, _⟩ => exact absurd rfl hb
    | ⟨1, _⟩ => rfl
  · rfl
theorem concat8_row5 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 5 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨5, hJ⟩ : Fin 8) k) = r5 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨5, hJ⟩ : Fin 8) k) 5 ?_ S1x1024 r5 rfl rfl 5 ?_ (ix2 (0 : Fin 1) k) ?_ ?_
  · exact hJ
  · rfl
  · intro b hb
    match b with
    | ⟨0, _⟩ => exact absurd rfl hb
    | ⟨1, _⟩ => rfl
  · rfl
theorem concat8_row6 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 6 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨6, hJ⟩ : Fin 8) k) = r6 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨6, hJ⟩ : Fin 8) k) 6 ?_ S1x1024 r6 rfl rfl 6 ?_ (ix2 (0 : Fin 1) k) ?_ ?_
  · exact hJ
  · rfl
  · intro b hb
    match b with
    | ⟨0, _⟩ => exact absurd rfl hb
    | ⟨1, _⟩ => rfl
  · rfl
theorem concat8_row7 (r0 r1 r2 r3 r4 r5 r6 r7 : S1x1024.Idx → EReal)
    (h : Shape.Concatenates ([(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))].map (·.1)) S8x1024 0) (hJ : 7 < 8) (k : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 (⟨7, hJ⟩ : Fin 8) k) = r7 (ix2 (0 : Fin 1) k) := by
  refine concatenate_apply_piece (0 : Fin 2) [(⟨S1x1024, r0⟩ : (s : Shape) × (s.Idx → EReal)), (⟨S1x1024, r1⟩ : (s : Shape) × (s.Idx → EReal)), (⟨S1x1024, r2⟩ : (s : Shape) × (s.Idx → EReal)), (⟨S1x1024, r3⟩ : (s : Shape) × (s.Idx → EReal)), (⟨S1x1024, r4⟩ : (s : Shape) × (s.Idx → EReal)), (⟨S1x1024, r5⟩ : (s : Shape) × (s.Idx → EReal)), (⟨S1x1024, r6⟩ : (s : Shape) × (s.Idx → EReal)), (⟨S1x1024, r7⟩ : (s : Shape) × (s.Idx → EReal))] h (ix2 (⟨7, hJ⟩ : Fin 8) k) 7 ?_ S1x1024 r7 rfl rfl 7 ?_ (ix2 (0 : Fin 1) k) ?_ ?_
  · exact hJ
  · rfl
  · intro b hb
    match b with
    | ⟨0, _⟩ => exact absurd rfl hb
    | ⟨1, _⟩ => rfl
  · rfl

theorem coefT_apply (mx my ia ib ic : S1024.Idx → EReal) (j : Fin 8) (k : Fin 1024) :
    coefT mx my ia ib ic (ix2 j k) = coef (ia (ix1 k)) (ib (ix1 k)) (ic (ix1 k)) (mx (ix1 k)) (my (ix1 k)) j := by
  have hrow : ∀ x : S1024.Idx → EReal, rowOf x (ix2 (0 : Fin 1) k) = x (ix1 k) := fun x =>
    broadcastInDim_apply _ Gen.bcast_S1024_S1x1024_1 x _ (ix1 k) (fun a => by
      have ha : a = 0 := Subsingleton.elim _ _
      subst ha
      show k.val = if (1024 : Nat) = 1 then 0 else k.val
      rw [if_neg (by decide)])
  unfold coefT
  match j with
  | ⟨0, hJ⟩ => exact (concat8_row0 _ _ _ _ _ _ _ _ _ hJ k).trans ((hrow _).trans rfl)
  | ⟨1, hJ⟩ => exact (concat8_row1 _ _ _ _ _ _ _ _ _ hJ k).trans ((hrow _).trans rfl)
  | ⟨2, hJ⟩ => exact (concat8_row2 _ _ _ _ _ _ _ _ _ hJ k).trans ((hrow _).trans rfl)
  | ⟨3, hJ⟩ => exact (concat8_row3 _ _ _ _ _ _ _ _ _ hJ k).trans ((hrow _).trans rfl)
  | ⟨4, hJ⟩ => exact (concat8_row4 _ _ _ _ _ _ _ _ _ hJ k).trans ((hrow _).trans rfl)
  | ⟨5, hJ⟩ => exact (concat8_row5 _ _ _ _ _ _ _ _ _ hJ k).trans ((hrow _).trans rfl)
  | ⟨6, hJ⟩ => exact (concat8_row6 _ _ _ _ _ _ _ _ _ hJ k).trans ((hrow _).trans rfl)
  | ⟨7, hJ⟩ => exact (concat8_row7 _ _ _ _ _ _ _ _ _ hJ k).trans ((hrow _).trans rfl)

/-! ## The tables in the memory the launch finds -/

/-- the contents after two stretches of operations are the second stretch's after the first's -/
theorem after_append (l₁ l₂ : List (HloOp τ sig (Elt Ideal))) :
    ∀ W : Valuation τ sig (Elt Ideal), after (l₁ ++ l₂) W = after l₂ (after l₁ W) := by
  induction l₁ with
  | nil => intro W; rfl
  | cons op l ih => intro W; exact ih (op.result W)

/-- an operation of eight literal operands reads each operand at its own buffer -/
theorem nary8_result' {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal))
    (hxs hy) (F : Valuation τ sig (Elt Ideal)) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

/-- the last stretch of host operations builds the coefficient table from the five padded vectors it finds -/
theorem rows_of (W : Valuation τ sig (Elt Ideal)) :
    (after (hostOps0_20 (F := Ideal)) W (Proc.devRef .tc main_v58) : S8x1024.Idx → EReal)
      = coefT (W (Proc.devRef .tc main_v17)) (W (Proc.devRef .tc main_v20)) (W (Proc.devRef .tc main_v21))
          (W (Proc.devRef .tc main_v22)) (W (Proc.devRef .tc main_v23)) := by
  simp only [hostOps0_20]
  simp (disch := decide) only [after_cons, after_nil,
      nullary_result', unary_result', binary_result', ternary_result', quaternary_result', reshape_result', nary8_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- and leaves the five padded vectors as it found them -/
theorem keep_of (W : Valuation τ sig (Elt Ideal)) :
    after (hostOps0_20 (F := Ideal)) W (Proc.devRef .tc main_v17) = W (Proc.devRef .tc main_v17)
    ∧ after (hostOps0_20 (F := Ideal)) W (Proc.devRef .tc main_v20) = W (Proc.devRef .tc main_v20)
    ∧ after (hostOps0_20 (F := Ideal)) W (Proc.devRef .tc main_v21) = W (Proc.devRef .tc main_v21)
    ∧ after (hostOps0_20 (F := Ideal)) W (Proc.devRef .tc main_v22) = W (Proc.devRef .tc main_v22)
    ∧ after (hostOps0_20 (F := Ideal)) W (Proc.devRef .tc main_v23) = W (Proc.devRef .tc main_v23) := by
  simp only [hostOps0_20]
  refine ⟨?_, ?_, ?_, ?_, ?_⟩ <;>
    simp (disch := decide) only [after_cons, after_nil,
      nullary_result', unary_result', binary_result', ternary_result', quaternary_result', reshape_result', nary8_result',
      unaryIndexed_result', binaryIndexed_result',
      nullary_result_ne', unary_result_ne', binary_result_ne', ternary_result_ne', quaternary_result_ne', reshape_result_ne',
      nary_result_ne', unaryIndexed_result_ne', binaryIndexed_result_ne']

/-! the five padded vectors in the memory the launch finds -/
set_option maxHeartbeats 2000000 in
theorem mx_stage : (V m c main_v17 : S1024.Idx → EReal) = mxP (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl
set_option maxHeartbeats 2000000 in
theorem my_stage : (V m c main_v20 : S1024.Idx → EReal) = myP (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl
set_option maxHeartbeats 2000000 in
theorem ia_stage : (V m c main_v21 : S1024.Idx → EReal) = iaP (m ((c : Thread nD τ).loc main_arg3)) (m ((c : Thread nD τ).loc main_arg4)) (m ((c : Thread nD τ).loc main_arg5)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl
set_option maxHeartbeats 2000000 in
theorem ib_stage : (V m c main_v22 : S1024.Idx → EReal) = ibP (m ((c : Thread nD τ).loc main_arg3)) (m ((c : Thread nD τ).loc main_arg4)) (m ((c : Thread nD τ).loc main_arg5)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl
set_option maxHeartbeats 2000000 in
theorem ic_stage : (V m c main_v23 : S1024.Idx → EReal) = icP (m ((c : Thread nD τ).loc main_arg3)) (m ((c : Thread nD τ).loc main_arg4)) (m ((c : Thread nD τ).loc main_arg5)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

theorem coef_stage :
    (V m c main_v58 : S8x1024.Idx → EReal)
      = coefT (V m c main_v17) (V m c main_v20) (V m c main_v21) (V m c main_v22) (V m c main_v23) := by
  have hs : V0 m c = after (hostOps0_20 (F := Ideal))
      (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b))) := by
    dsimp only [V0]
    rw [← after_append]
    exact congrArg (fun l => after l (fun b => m (c, b)))
      (by simp only [List.flatten_cons, List.flatten_nil, List.append_nil, List.append_assoc])
  obtain ⟨k17, k20, k21, k22, k23⟩ := keep_of (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b)))
  show V0 m c (Proc.devRef .tc main_v58) = coefT (V0 m c (Proc.devRef .tc main_v17)) (V0 m c (Proc.devRef .tc main_v20))
    (V0 m c (Proc.devRef .tc main_v21)) (V0 m c (Proc.devRef .tc main_v22)) (V0 m c (Proc.devRef .tc main_v23))
  rw [hs, k17, k20, k21, k22, k23]
  exact rows_of _

/-- The coefficient table the launch reads. -/
theorem coef_table :
    (V m c main_v58 : S8x1024.Idx → EReal) = fun i =>
      kCoef (m ((c : Thread nD τ).loc main_arg1)) (m ((c : Thread nD τ).loc main_arg3)) (m ((c : Thread nD τ).loc main_arg4))
        (m ((c : Thread nD τ).loc main_arg5)) (i 0) (i 1) := by
  rw [coef_stage, mx_stage, my_stage, ia_stage, ib_stage, ic_stage]
  funext i
  obtain ⟨j, k, rfl⟩ : ∃ (j : Fin 8) (k : Fin 1024), i = ix2 j k := ⟨i 0, i 1, eq_ix2 i⟩
  rw [coefT_apply, mxP_apply, myP_apply, iaP_apply, ibP_apply, icP_apply]
  rfl

end Cert.Splat.Tables

end
-- ==== Proof.Algebra.lean ====
/-
  The pure algebra on the extended reals behind the two ways of evaluating a Gaussian's exponent.

  (1) The float literals as extended reals: 0, 1, 2, -1/2, and the three clip bounds.
  (2) For real arguments the eight monomials of a pixel against the eight coefficients of a Gaussian sum to the
      quadratic form as written:
        px^2 (-ia/2) + py^2 (-ic/2) + px py (-ib) + px (ia mx + ib my) + py (ic my + ib mx)
          - (ia mx^2 + 2 ib mx my + ic my^2)/2  =  -(ia dx^2 + 2 ib dx dy + ic dy^2)/2,   dx = px - mx, dy = py - my.
  (3) A sum over 1024 columns whose last 24 terms vanish is the sum over the first 1000.
  (4) For real inputs the clipped deviations lie in [lo, 1] with lo > 0 and the clipped correlation in [-q, q] with
      q < 1, so the determinant a^2 b^2 (1 - r^2) is a positive real and the three entries of the inverse covariance
      are real.
-/
import proofs.«103306_j71468255805590_2_alg».proof.Proof.Spec

noncomputable section

namespace Cert.Splat

open Idealize.ShloMosaic

/-! ## (1) The values of the literal words -/

/-- the word of 0.0 -/
theorem wZero_eq : wZero = 0 := by
  simp [wZero, Ideal.ofBits, Ideal.ieee]

/-- the word of 1.0: exponent field 127, fraction 0 -/
theorem wOne_eq : wOne = ((1:ℝ):EReal) := by
  simp [wOne, Ideal.ofBits, Ideal.ieee, -EReal.coe_mul]; norm_num

/-- the word of 2.0: exponent field 128, fraction 0 -/
theorem wTwo_eq : wTwo = ((2:ℝ):EReal) := by
  simp [wTwo, Ideal.ofBits, Ideal.ieee, -EReal.coe_mul]; norm_num

/-- the word of -0.5: sign set, exponent field 126, fraction 0 -/
theorem wNegHalf_eq : wNegHalf = (((-1/2):ℝ):EReal) := by
  simp [wNegHalf, Ideal.ofBits, Ideal.ieee, -EReal.coe_mul, -EReal.coe_neg]; norm_num

/-- the lower bound of a deviation: (2^23 + 5355287) * 2^(113 - 127 - 23) = 13743895 / 2^37 -/
theorem wLo_eq : wLo = (((13743895:ℝ) / 137438953472 : ℝ) : EReal) := by
  simp [wLo, Ideal.ofBits, Ideal.ieee, -EReal.coe_mul, -EReal.coe_neg]; norm_num

/-- the upper bound of a correlation: (2^23 + 6710886) * 2^(126 - 127 - 23) = 15099494 / 2^24 -/
theorem wRhoHi_eq : wRhoHi = (((15099494:ℝ) / 16777216 : ℝ) : EReal) := by
  simp [wRhoHi, Ideal.ofBits, Ideal.ieee, -EReal.coe_mul, -EReal.coe_neg]; norm_num

/-- the lower bound of a correlation: the same word with the sign set -/
theorem wRhoLo_eq : wRhoLo = ((-((15099494:ℝ) / 16777216) : ℝ) : EReal) := by
  simp [wRhoLo, Ideal.ofBits, Ideal.ieee, -EReal.coe_mul, -EReal.coe_neg]; norm_num

/-! ## (2) The expansion of the quadratic form -/

/-- For real arguments the eight products sum to the quadratic form: both sides are one coerced real, and the two
    reals agree by expanding (px - mx) and (py - my). -/
theorem feat_coef_sum (ia ib ic px py mx my : ℝ) :
    (∑ j : Fin 8, feat (px:EReal) (py:EReal) j * coef (ia:EReal) (ib:EReal) (ic:EReal) (mx:EReal) (my:EReal) j)
      = expoQ (ia:EReal) (ib:EReal) (ic:EReal) (px:EReal) (py:EReal) (mx:EReal) (my:EReal) := by
  rw [Fin.sum_univ_eight]
  simp only [feat, coef, expoQ, wZero_eq, wOne_eq, wTwo_eq, wNegHalf_eq]
  simp [-EReal.coe_mul, -EReal.coe_neg, -EReal.coe_add, -EReal.coe_sub]
  simp only [← EReal.coe_mul, ← EReal.coe_add, ← EReal.coe_sub, ← EReal.coe_neg]
  congr 1; ring

/-- The same with the zero accumulator in front. -/
theorem zero_add_feat_coef_sum (ia ib ic px py mx my : ℝ) :
    wZero + (∑ j : Fin 8, feat (px:EReal) (py:EReal) j * coef (ia:EReal) (ib:EReal) (ic:EReal) (mx:EReal) (my:EReal) j)
      = expoQ (ia:EReal) (ib:EReal) (ic:EReal) (px:EReal) (py:EReal) (mx:EReal) (my:EReal) := by
  rw [wZero_eq, zero_add, feat_coef_sum]

/-! ## (3) A padded sum -/

/-- Split the 1024 columns as 1000 + 24; each of the last 24 terms is zero. -/
theorem sum_pad (f : Fin 1024 → EReal) (hz : ∀ k : Fin 1024, 1000 ≤ k.val → f k = 0) :
    ∑ k : Fin 1024, f k = ∑ k : Fin 1000, f ⟨k.val, by omega⟩ := by
  have h := Fin.sum_univ_add (M := EReal) (a := 1000) (b := 24) f
  have h2 : ∑ i : Fin 24, f (Fin.natAdd 1000 i) = 0 :=
    Finset.sum_eq_zero (fun i _ => hz _ (by simp [Fin.natAdd]))
  rw [h2, add_zero] at h
  exact h

/-! ## (4) The inverse covariance of real inputs is real -/

/-- clipping a real between real bounds is the real clip -/
theorem clip_coe (lo hi x : ℝ) :
    clip (lo:EReal) (hi:EReal) (x:EReal) = ((min hi (max lo x) : ℝ) : EReal) := by
  unfold clip
  rw [EReal.coe_strictMono.monotone.map_min, EReal.coe_strictMono.monotone.map_max]

/-- the determinant of real entries is the real a^2 b^2 - (r a b)^2 -/
theorem det_coe (a b r : ℝ) :
    det (a:EReal) (b:EReal) (r:EReal) = ((a * a * (b * b) - r * a * b * (r * a * b) : ℝ) : EReal) := by
  unfold det
  simp only [← EReal.coe_mul, ← EReal.coe_sub]

/-- a^2 b^2 - (r a b)^2 = (a b)^2 (1 - r^2) is positive when a, b > 0 and r^2 < 1 -/
theorem det_pos_real {a b r q : ℝ} (ha : 0 < a) (hb : 0 < b) (hq : q < 1) (hr1 : -q ≤ r) (hr2 : r ≤ q) :
    0 < a * a * (b * b) - r * a * b * (r * a * b) := by
  have hq0 : 0 ≤ q := by linarith
  have hrr : r * r < 1 := by nlinarith
  have hab : 0 < a * b := mul_pos ha hb
  have h1 : 0 < 1 - r * r := by linarith
  have : a * a * (b * b) - r * a * b * (r * a * b) = (a * b) * (a * b) * (1 - r * r) := by ring
  rw [this]
  exact mul_pos (mul_pos hab hab) h1

/-- For real inputs the clipped deviations and correlation are reals a, b, r, and the determinant is a positive
    real d: lo <= a, b with lo > 0, and -q <= r <= q with q < 1. -/
theorem clipped_det_pos (sx sy rho : ℝ) :
    ∃ a b r d : ℝ, clip wLo wOne (sx:EReal) = (a:EReal) ∧ clip wLo wOne (sy:EReal) = (b:EReal) ∧
      clip wRhoLo wRhoHi (rho:EReal) = (r:EReal) ∧ det (a:EReal) (b:EReal) (r:EReal) = (d:EReal) ∧ 0 < d := by
  refine ⟨min 1 (max (13743895 / 137438953472) sx), min 1 (max (13743895 / 137438953472) sy),
    min (15099494 / 16777216) (max (-(15099494 / 16777216)) rho), _, ?_, ?_, ?_, det_coe _ _ _, ?_⟩
  · rw [wLo_eq, wOne_eq, clip_coe]
  · rw [wLo_eq, wOne_eq, clip_coe]
  · rw [wRhoLo_eq, wRhoHi_eq, clip_coe]
  · have hlo : (0:ℝ) < 13743895 / 137438953472 := by norm_num
    have hlo1 : (13743895:ℝ) / 137438953472 ≤ 1 := by norm_num
    refine det_pos_real (q := 15099494 / 16777216) ?_ ?_ (by norm_num) ?_ (min_le_left _ _)
    · exact lt_min one_pos (lt_of_lt_of_le hlo (le_max_left _ _))
    · exact lt_min one_pos (lt_of_lt_of_le hlo (le_max_left _ _))
    · exact le_min (by norm_num) (le_max_left _ _)

/-- b^2 / det is real -/
theorem ia_real (sx sy rho : ℝ) :
    ∃ t : ℝ, ia (clip wLo wOne (sx:EReal)) (clip wLo wOne (sy:EReal)) (clip wRhoLo wRhoHi (rho:EReal)) = (t:EReal) := by
  obtain ⟨a, b, r, d, ha, hb, hr, hd, hpos⟩ := clipped_det_pos sx sy rho
  rw [ia, ha, hb, hr, hd, Ideal.div_coe (ne_of_gt hpos), ← EReal.coe_mul, ← EReal.coe_mul]
  exact ⟨_, rfl⟩

/-- -(r a b) / det is real -/
theorem ib_real (sx sy rho : ℝ) :
    ∃ t : ℝ, ib (clip wLo wOne (sx:EReal)) (clip wLo wOne (sy:EReal)) (clip wRhoLo wRhoHi (rho:EReal)) = (t:EReal) := by
  obtain ⟨a, b, r, d, ha, hb, hr, hd, hpos⟩ := clipped_det_pos sx sy rho
  rw [ib, ha, hb, hr, hd, Ideal.div_coe (ne_of_gt hpos), ← EReal.coe_mul, ← EReal.coe_mul, ← EReal.coe_neg,
    ← EReal.coe_mul]
  exact ⟨_, rfl⟩

/-- a^2 / det is real -/
theorem ic_real (sx sy rho : ℝ) :
    ∃ t : ℝ, ic (clip wLo wOne (sx:EReal)) (clip wLo wOne (sy:EReal)) (clip wRhoLo wRhoHi (rho:EReal)) = (t:EReal) := by
  obtain ⟨a, b, r, d, ha, hb, hr, hd, hpos⟩ := clipped_det_pos sx sy rho
  rw [ic, ha, hb, hr, hd, Ideal.div_coe (ne_of_gt hpos), ← EReal.coe_mul, ← EReal.coe_mul]
  exact ⟨_, rfl⟩

/-! ## The same for Gaussian k of the picture, when its three raw inputs are real -/

open Idealize.ShloMosaic.ValueIdx in
theorem iaOf_real (sx sy rho : SK.Idx → EReal) (k : Fin 1000) (hx : ∃ x : ℝ, sx (ix1 k) = (x:EReal))
    (hy : ∃ y : ℝ, sy (ix1 k) = (y:EReal)) (hr : ∃ z : ℝ, rho (ix1 k) = (z:EReal)) :
    ∃ t : ℝ, iaOf sx sy rho k = (t:EReal) := by
  obtain ⟨x, hx⟩ := hx; obtain ⟨y, hy⟩ := hy; obtain ⟨z, hr⟩ := hr
  rw [iaOf, hx, hy, hr]; exact ia_real x y z

open Idealize.ShloMosaic.ValueIdx in
theorem ibOf_real (sx sy rho : SK.Idx → EReal) (k : Fin 1000) (hx : ∃ x : ℝ, sx (ix1 k) = (x:EReal))
    (hy : ∃ y : ℝ, sy (ix1 k) = (y:EReal)) (hr : ∃ z : ℝ, rho (ix1 k) = (z:EReal)) :
    ∃ t : ℝ, ibOf sx sy rho k = (t:EReal) := by
  obtain ⟨x, hx⟩ := hx; obtain ⟨y, hy⟩ := hy; obtain ⟨z, hr⟩ := hr
  rw [ibOf, hx, hy, hr]; exact ib_real x y z

open Idealize.ShloMosaic.ValueIdx in
theorem icOf_real (sx sy rho : SK.Idx → EReal) (k : Fin 1000) (hx : ∃ x : ℝ, sx (ix1 k) = (x:EReal))
    (hy : ∃ y : ℝ, sy (ix1 k) = (y:EReal)) (hr : ∃ z : ℝ, rho (ix1 k) = (z:EReal)) :
    ∃ t : ℝ, icOf sx sy rho k = (t:EReal) := by
  obtain ⟨x, hx⟩ := hx; obtain ⟨y, hy⟩ := hy; obtain ⟨z, hr⟩ := hr
  rw [icOf, hx, hy, hr]; exact ic_real x y z

end Cert.Splat

end
-- ==== Proof.Glue.lean ====
/-
  The picture through the padded tables is the picture.

  Of the 1024 columns the last 24 carry colour 0, so each adds exp(..) * 0 = 0
  and the sum is the sum over the first 1000.  On a true column the inverse covariance, the centre and the pixel
  are seven reals, so the eight-term product of monomials and coefficients is the quadratic form as written, which
  is the exponent of the weight; and the padded colour table reads the clipped colour on the three true channels.
-/
import proofs.«103306_j71468255805590_2_alg».proof.Proof.KSpec
import proofs.«103306_j71468255805590_2_alg».proof.Proof.Algebra

noncomputable section

namespace Cert.Splat

open Idealize.ShloMosaic

open Idealize.ShloMosaic.ValueIdx

/-- the integer 0 converted to a float is 0 -/
theorem iZero_eq : iZero = 0 := by simp [iZero]

/-- a padded column carries colour 0 -/
theorem kCol_pad (col : SCol.Idx → EReal) (k : Fin 1024) (c : Fin 8) (h : 1000 ≤ k.val) : kCol col k c = 0 := by
  unfold kCol
  rw [dif_neg (by omega), iZero_eq]

/-- on a true column and a true channel the padded colour table reads the clipped colour -/
theorem kCol_true (col : SCol.Idx → EReal) (k : Fin 1024) (c : Fin 3) (h : k.val < 1000) :
    kCol col k (⟨c.val, by omega⟩ : Fin 8) = clip wZero wOne (col (ix2 (⟨k.val, h⟩ : Fin 1000) c)) := by
  unfold kCol
  rw [dif_pos ⟨h, c.isLt⟩]

/-- on a true column the eight-term product is the quadratic form as written: all seven numbers are real -/
theorem kExpo_true (pos : SPos.Idx → EReal) (mu : SMu.Idx → EReal) (sx sy rho : SK.Idx → EReal)
    (hpos : ∀ i, ∃ t : ℝ, pos i = (t:EReal)) (hmu : ∀ i, ∃ t : ℝ, mu i = (t:EReal))
    (hsx : ∀ i, ∃ t : ℝ, sx i = (t:EReal)) (hsy : ∀ i, ∃ t : ℝ, sy i = (t:EReal))
    (hrho : ∀ i, ∃ t : ℝ, rho i = (t:EReal)) (n : Fin 65536) (k : Fin 1024) (h : k.val < 1000) :
    kExpo pos mu sx sy rho n k =
      expoQ (iaOf sx sy rho ⟨k.val, h⟩) (ibOf sx sy rho ⟨k.val, h⟩) (icOf sx sy rho ⟨k.val, h⟩)
        (pos (ix2 n 0)) (pos (ix2 n 1)) (mu (ix2 (⟨k.val, h⟩ : Fin 1000) 0)) (mu (ix2 (⟨k.val, h⟩ : Fin 1000) 1)) := by
  obtain ⟨ta, hta⟩ := iaOf_real sx sy rho ⟨k.val, h⟩ (hsx _) (hsy _) (hrho _)
  obtain ⟨tb, htb⟩ := ibOf_real sx sy rho ⟨k.val, h⟩ (hsx _) (hsy _) (hrho _)
  obtain ⟨tc, htc⟩ := icOf_real sx sy rho ⟨k.val, h⟩ (hsx _) (hsy _) (hrho _)
  obtain ⟨px, hpx⟩ := hpos (ix2 n 0)
  obtain ⟨py, hpy⟩ := hpos (ix2 n 1)
  obtain ⟨mx, hmx⟩ := hmu (ix2 (⟨k.val, h⟩ : Fin 1000) 0)
  obtain ⟨my, hmy⟩ := hmu (ix2 (⟨k.val, h⟩ : Fin 1000) 1)
  simp only [kExpo, kCoef, kIa, kIb, kIc, kMx, kMy, dif_pos h]
  rw [hta, htb, htc, hpx, hpy, hmx, hmy]
  exact feat_coef_sum ta tb tc px py mx my

/-- The picture through the padded tables is the picture: the padded columns add 0, and on a true column the
    exponent is the quadratic form and the colour is the clipped colour. -/
theorem kPicture_eq_picture (pos : SPos.Idx → EReal) (mu : SMu.Idx → EReal) (col : SCol.Idx → EReal)
    (sx sy rho : SK.Idx → EReal)
    (hpos : ∀ i, ∃ t : ℝ, pos i = (t:EReal)) (hmu : ∀ i, ∃ t : ℝ, mu i = (t:EReal))
    (hsx : ∀ i, ∃ t : ℝ, sx i = (t:EReal)) (hsy : ∀ i, ∃ t : ℝ, sy i = (t:EReal))
    (hrho : ∀ i, ∃ t : ℝ, rho i = (t:EReal)) (n : Fin 65536) (c : Fin 3) :
    kPicture pos mu col sx sy rho (ValueIdx.ix2 n (⟨c.val, by omega⟩ : Fin 8)) =
      picture pos mu col sx sy rho (ValueIdx.ix2 n c) := by
  show Ideal.tanh (wHalf * ∑ k : Fin 1024,
      Ideal.exp (kExpo pos mu sx sy rho n k) * kCol col k (⟨c.val, by omega⟩ : Fin 8)) =
    Ideal.tanh (wHalf * ∑ k : Fin 1000, weight pos mu sx sy rho n k * clip wZero wOne (col (ix2 k c)))
  rw [sum_pad _ (fun k hk => by rw [kCol_pad col k _ hk, mul_zero])]
  congr 2
  refine Finset.sum_congr rfl (fun k _ => ?_)
  rw [kExpo_true pos mu sx sy rho hpos hmu hsx hsy hrho n _ k.isLt, kCol_true col _ c k.isLt]
  rfl

end Cert.Splat

end
-- ==== Proof.Finite.lean ====
/-
  The precondition read back: every entry of the six argument arrays is a real number.

  The printed predicate is, array by array, "all entries x satisfy |x| < +inf", the six answers joined by
  'and'.  On the extended reals |x| = max x (-x), and max x (-x) < +inf excludes both infinities: at -inf the
  negation is +inf, at +inf the entry itself is.  What is left is the coercion of a real.
-/
import proofs.«103306_j71468255805590_2_alg».proof.Pre_finite_inputs
import proofs.«103306_j71468255805590_2_alg».proof.Proof.Gen.Pre_finite_inputs
import Idealize.ShloMosaic.PureOps.Ideal
import Idealize.ShloMosaic.Lib.ReduceAll
import Idealize.ShloMosaic.Lib.ValueIdx

noncomputable section

namespace Cert.Splat.Finite

open Idealize.ShloMosaic Cert.Pre_finite_inputs

/-- the rank-0 result has one index -/
instance : Subsingleton S_.Idx := ⟨fun a b => funext fun d => d.elim0⟩

/-- the word 0x7F800000 denotes +inf -/
theorem inf_word : Ideal.ofBits .f32 0x7F800000#32 = (⊤ : EReal) := by
  simp [Ideal.ofBits, Ideal.ieee]

/-- an extended real whose absolute value compares below +inf is a real -/
theorem real_of_abs_lt (x : EReal)
    (h : Ideal.cmp .olt (max x (-x)) (Ideal.ofBits .f32 0x7F800000#32) = 1#1) : ∃ t : ℝ, x = (t : EReal) := by
  rw [inf_word] at h
  induction x using EReal.rec with
  | bot => simp [Ideal.cmp] at h
  | coe t => exact ⟨t, rfl⟩
  | top => simp [Ideal.cmp] at h

/-- Under the printed precondition every entry of every argument array is a real. -/
theorem real_of_pre [hPre_finite_inputs : Cert.Pre_finite_inputs.Facts]
    (a0 : FVec Ideal S65536x2 .f32) (a1 : FVec Ideal S1000x2 .f32) (a2 : FVec Ideal S1000x3 .f32)
    (a3 : FVec Ideal S1000 .f32) (a4 : FVec Ideal S1000 .f32) (a5 : FVec Ideal S1000 .f32)
    (h : Cert.Pre_finite_inputs.fn (F := Ideal) a0 a1 a2 a3 a4 a5 = fun _ => 1#1) :
    (∀ i, ∃ t : ℝ, a0 i = (t : EReal)) ∧ (∀ i, ∃ t : ℝ, a1 i = (t : EReal)) ∧ (∀ i, ∃ t : ℝ, a2 i = (t : EReal))
      ∧ (∀ i, ∃ t : ℝ, a3 i = (t : EReal)) ∧ (∀ i, ∃ t : ℝ, a4 i = (t : EReal)) ∧ (∀ i, ∃ t : ℝ, a5 i = (t : EReal)) := by
  have e := congrFun h ValueIdx.ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i)⟩

end Cert.Splat.Finite

end
-- ==== Proof.KResult.lean ====
/-
  The kernel program's result is the picture.

  The run leaves in the result buffer the first three channels of the launch's output array.  That array is, entry
  by entry, tanh(1/2 * sum over the 1024 columns of exp(sum over the eight monomials of monomial * coefficient) *
  colour) of the positions and the two tables the host operations built; the tables are the padded coefficient and
  colour tables of the specification; and under the precondition every argument entry is a real number, so on each
  true column the eight-term sum is the quadratic form and each padded column contributes zero.
-/
import proofs.«103306_j71468255805590_2_alg».proof.Defs
import proofs.«103306_j71468255805590_2_alg».proof.Proof.FrameI
import proofs.«103306_j71468255805590_2_alg».proof.Proof.KArray
import proofs.«103306_j71468255805590_2_alg».proof.Proof.Tables
import proofs.«103306_j71468255805590_2_alg».proof.Proof.Glue
import proofs.«103306_j71468255805590_2_alg».proof.Proof.Finite

noncomputable section

namespace Cert.Splat.KResult

open Idealize.ShloMosaic Idealize.ShloMosaic.TcCoe Idealize.ShloMosaic.ValueIdx Idealize.SL.Sem
open Cert.KernelIdeal Cert.KernelIdeal.Gen Cert.KernelIdeal.Frame

variable (m : (ℓ : Loc nD τ sig) → Buf (Elt Ideal) ℓ) (ρ : Dev nD → PrngReg)

/-- What the host operation after the launch leaves in the result buffer, under the precondition. -/
theorem kernel_result [hP : Cert.Pre_finite_inputs.Facts] (hpre : Cert.Pre_KernelIdeal m) (c : Dev nD) :
    Pipeline.afterTail₀ cfgs (dats m) 0 (V0 m) [hostOps1] c main_v60
      = Cert.Splat.picture (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h0, h1, h2, h3, h4, h5⟩ := Cert.Splat.Finite.real_of_pre _ _ _ _ _ _ (hpre c)
  rw [Cert.Splat.KArray.result_eq, V_main_arg0, Cert.Splat.Tables.coef_table, Cert.Splat.Tables.col_table]
  funext i
  obtain ⟨n, q, rfl⟩ : ∃ (n : Fin 65536) (q : Fin 3), i = ix2 n q := ⟨i 0, i 1, eq_ix2 i⟩
  exact Cert.Splat.kPicture_eq_picture _ _ _ _ _ _ h0 h1 h3 h4 h5 n q

/-- The kernel program's run, under the precondition: the result is the picture, the arguments are unchanged. -/
theorem kernel_run [hP : Cert.Pre_finite_inputs.Facts] (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v60) = Cert.Splat.picture (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.KernelIdeal.defs _ _).mono (fun _ h c => ⟨(h c).1.trans (kernel_result m hpre c), (h c).2⟩) (run_post m ρ)

end Cert.Splat.KResult

end
-- ==== Proof.lean ====
/-
  A picture of 65536 pixels rendered from 1000 anisotropic Gaussians, computed two ways.

  The reference evaluates, for every pixel and Gaussian, the quadratic form -1/2 (ia dx^2 + 2 ib dx dy + ic dy^2) of
  the offset (dx, dy) of the pixel from the Gaussian's centre against the inverse covariance (ia, ib, ic), takes exp,
  sums weight * colour over the Gaussians and maps through tanh(x / 2).  The kernel program expands the quadratic form
  into a polynomial in the pixel's coordinates: eight monomials per pixel against eight coefficients per Gaussian,
  summed as a matrix product; it pads the Gaussians from 1000 to 1024 columns (with colour zero) and the colours from
  3 to 8 channels, multiplies the weights with the colour table, and slices the first three channels.

  On the extended reals the two agree when the inputs are real numbers: then the clipped deviations are positive and
  the clipped correlation is below one in absolute value, so the determinant is positive, the inverse covariance is
  real, and the expansion is an identity of real polynomials; a padded column contributes exp(..) * 0 = 0.  The
  precondition (every input finite) gives exactly that.

  Frames: each program terminates without a fault and leaves its six arguments unchanged.  The reference is host
  operations only.  The kernel program is host operations, one launch over 32 grid points whose body reads three input
  blocks and covers its output block with one store, and a slice; no host operation writes an argument and the one
  window over an argument is an input.  The kernel program's idealization rewrote nothing, so 'preserves' is trivial.
-/
import proofs.«103306_j71468255805590_2_alg».proof.Defs
import proofs.«103306_j71468255805590_2_alg».proof.Proof.Gen.Kernel
import proofs.«103306_j71468255805590_2_alg».proof.Proof.Gen.KernelIdeal
import proofs.«103306_j71468255805590_2_alg».proof.Proof.Gen.ReferenceIdeal
import proofs.«103306_j71468255805590_2_alg».proof.Proof.Gen.Pre_finite_inputs
import proofs.«103306_j71468255805590_2_alg».proof.Proof.Gen.ReferenceIdeal.Run
import proofs.«103306_j71468255805590_2_alg».proof.Proof.Gen.ReferenceIdeal.Read
import proofs.«103306_j71468255805590_2_alg».proof.Proof.FrameK
import proofs.«103306_j71468255805590_2_alg».proof.Proof.FrameI
import proofs.«103306_j71468255805590_2_alg».proof.Proof.RefValue
import proofs.«103306_j71468255805590_2_alg».proof.Proof.KResult
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the picture of the (agreeing) arguments. -/
theorem algebraic : Cert.algebraic_KernelIdeal_ReferenceIdeal := by
  intro m ρ m' ρ' hpre hagree
  refine ⟨_, Cert.Splat.KResult.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.Splat.RefValue.ref_eq_picture,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
